-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v34)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v34) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v44) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x64 : Shape := ⟨2, ![8192, 64]⟩
abbrev S2x262144 : Shape := ⟨2, ![2, 262144]⟩
abbrev S64x64 : Shape := ⟨2, ![64, 64]⟩
abbrev S64 : Shape := ⟨1, ![64]⟩
abbrev S_ : Shape := ⟨0, ![]⟩

class Facts : Prop where
  bcast_S_S8192x64 : S_.BroadcastsInDim S8192x64 (![] : Fin 0 → Fin S8192x64.rank)
  reducesTo_S8192x64_S_d0_1 : S8192x64.ReducesTo [0, 1] S_
  h_S_ : 0 < S_.numel
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_

variable [Facts]

def fn {F : FTy → Type} [FloatOps F] (main_arg0 : FVec F S8192x64 .f32) (main_arg1 : IVec S2x262144 32) (main_arg2 : FVec F S64x64 .f32) (main_arg3 : FVec F S64 .f32) : IVec S_ 1 :=
  let main_v0 : FVec F S8192x64 .f32 := Host.absf main_arg0
  let main_cst : FVec F S_ .f32 := constant S_ .f32 0x7F800000#32
  let main_v1 : FVec F S8192x64 .f32 := broadcastInDim S8192x64 ![] bcast_S_S8192x64 main_cst
  let main_v2 : IVec S8192x64 1 := cmpf .olt main_v0 main_v1
  let main_c : IVec S_ 1 := constantI S_ 1 1#1
  let main_v3 : IVec S_ 1 := (fun x v => Host.reduce IntOp.andi x v reducesTo_S8192x64_S_d0_1 h_S_) main_v2 main_c
  let main_v4 : FVec F S64x64 .f32 := Host.absf main_arg2
  let main_cst_0 : FVec F S_ .f32 := constant S_ .f32 0x7F800000#32
  let main_v5 : FVec F S64x64 .f32 := broadcastInDim S64x64 ![] bcast_S_S64x64 main_cst_0
  let main_v6 : IVec S64x64 1 := cmpf .olt main_v4 main_v5
  let main_c_1 : IVec S_ 1 := constantI S_ 1 1#1
  let main_v7 : IVec S_ 1 := (fun x v => Host.reduce IntOp.andi x v reducesTo_S64x64_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  main_v13
-- ==== Kernel.lean ====
abbrev S8192x64 : Shape := ⟨2, ![8192, 64]⟩
abbrev S2x262144 : Shape := ⟨2, ![2, 262144]⟩
abbrev S64x64 : Shape := ⟨2, ![64, 64]⟩
abbrev S64 : Shape := ⟨1, ![64]⟩
abbrev S_ : Shape := ⟨0, ![]⟩
abbrev S8192x8192 : Shape := ⟨2, ![8192, 8192]⟩
abbrev S1x262144 : Shape := ⟨2, ![1, 262144]⟩
abbrev S262144 : Shape := ⟨1, ![262144]⟩
abbrev S262144x1 : Shape := ⟨2, ![262144, 1]⟩
abbrev S262144x2 : Shape := ⟨2, ![262144, 2]⟩
abbrev S8192 : Shape := ⟨1, ![8192]⟩
abbrev S8192x1 : Shape := ⟨2, ![8192, 1]⟩
abbrev S1x64 : Shape := ⟨2, ![1, 64]⟩
abbrev S2048x2048 : Shape := ⟨2, ![2048, 2048]⟩
abbrev S2048x1 : Shape := ⟨2, ![2048, 1]⟩
abbrev S2048x64 : Shape := ⟨2, ![2048, 64]⟩

abbrev nBuf : Space → Nat
  | .hbm => 52
  | .vmem => 10
  | .smem => 0
  | _ => 0

abbrev bufTy : (tb : Table) → Fin (tcTables nBuf tb) → BufTy
  | .hbm, ⟨0, _⟩ => ⟨S8192x64, .f32⟩
  | .hbm, ⟨1, _⟩ => ⟨S2x262144, .i32⟩
  | .hbm, ⟨2, _⟩ => ⟨S64x64, .f32⟩
  | .hbm, ⟨3, _⟩ => ⟨S64, .f32⟩
  | .hbm, ⟨4, _⟩ => ⟨S_, .bf16⟩
  | .hbm, ⟨5, _⟩ => ⟨S8192x8192, .bf16⟩
  | .hbm, ⟨6, _⟩ => ⟨S1x262144, .i32⟩
  | .hbm, ⟨7, _⟩ => ⟨S262144, .i32⟩
  | .hbm, ⟨8, _⟩ => ⟨S1x262144, .i32⟩
  | .hbm, ⟨9, _⟩ => ⟨S262144, .i32⟩
  | .hbm, ⟨10, _⟩ => ⟨S_, .i32⟩
  | .hbm, ⟨11, _⟩ => ⟨S262144, .i32⟩
  | .hbm, ⟨12, _⟩ => ⟨S262144, .i1⟩
  | .hbm, ⟨13, _⟩ => ⟨S_, .i32⟩
  | .hbm, ⟨14, _⟩ => ⟨S262144, .i32⟩
  | .hbm, ⟨15, _⟩ => ⟨S262144, .i32⟩
  | .hbm, ⟨16, _⟩ => ⟨S262144, .i32⟩
  | .hbm, ⟨17, _⟩ => ⟨S_, .i32⟩
  | .hbm, ⟨18, _⟩ => ⟨S262144, .i32⟩
  | .hbm, ⟨19, _⟩ => ⟨S262144, .i1⟩
  | .hbm, ⟨20, _⟩ => ⟨S_, .i32⟩
  | .hbm, ⟨21, _⟩ => ⟨S262144, .i32⟩
  | .hbm, ⟨22, _⟩ => ⟨S262144, .i32⟩
  | .hbm, ⟨23, _⟩ => ⟨S262144, .i32⟩
  | .hbm, ⟨24, _⟩ => ⟨S262144x1, .i32⟩
  | .hbm, ⟨25, _⟩ => ⟨S262144x1, .i32⟩
  | .hbm, ⟨26, _⟩ => ⟨S262144x2, .i32⟩
  | .hbm, ⟨27, _⟩ => ⟨S_, .bf16⟩
  | .hbm, ⟨28, _⟩ => ⟨S262144, .bf16⟩
  | .hbm, ⟨29, _⟩ => ⟨S8192x8192, .bf16⟩
  | .hbm, ⟨30, _⟩ => ⟨S8192x8192, .f32⟩
  | .hbm, ⟨31, _⟩ => ⟨S_, .f32⟩
  | .hbm, ⟨32, _⟩ => ⟨S8192, .f32⟩
  | .hbm, ⟨33, _⟩ => ⟨S_, .f32⟩
  | .hbm, ⟨34, _⟩ => ⟨S8192, .f32⟩
  | .hbm, ⟨35, _⟩ => ⟨S8192, .f32⟩
  | .hbm, ⟨36, _⟩ => ⟨S_, .f32⟩
  | .hbm, ⟨37, _⟩ => ⟨S8192, .f32⟩
  | .hbm, ⟨38, _⟩ => ⟨S8192, .i1⟩
  | .hbm, ⟨39, _⟩ => ⟨S_, .f32⟩
  | .hbm, ⟨40, _⟩ => ⟨S8192, .f32⟩
  | .hbm, ⟨41, _⟩ => ⟨S8192, .f32⟩
  | .hbm, ⟨42, _⟩ => ⟨S_, .f32⟩
  | .hbm, ⟨43, _⟩ => ⟨S_, .f32⟩
  | .hbm, ⟨44, _⟩ => ⟨S8192, .f32⟩
  | .hbm, ⟨45, _⟩ => ⟨S8192, .f32⟩
  | .hbm, ⟨46, _⟩ => ⟨S8192x1, .f32⟩
  | .hbm, ⟨47, _⟩ => ⟨S8192x1, .f32⟩
  | .hbm, ⟨48, _⟩ => ⟨S8192x64, .f32⟩
  | .hbm, ⟨49, _⟩ => ⟨S8192x64, .f32⟩
  | .hbm, ⟨50, _⟩ => ⟨S1x64, .f32⟩
  | .hbm, ⟨51, _⟩ => ⟨S8192x64, .f32⟩
  | .local _ .vmem, ⟨0, _⟩ => ⟨S2048x2048, .bf16⟩
  | .local _ .vmem, ⟨1, _⟩ => ⟨S2048x2048, .bf16⟩
  | .local _ .vmem, ⟨2, _⟩ => ⟨S8192x64, .f32⟩
  | .local _ .vmem, ⟨3, _⟩ => ⟨S2048x1, .f32⟩
  | .local _ .vmem, ⟨4, _⟩ => ⟨S2048x1, .f32⟩
  | .local _ .vmem, ⟨5, _⟩ => ⟨S64x64, .f32⟩
  | .local _ .vmem, ⟨6, _⟩ => ⟨S1x64, .f32⟩
  | .local _ .vmem, ⟨7, _⟩ => ⟨S2048x64, .f32⟩
  | .local _ .vmem, ⟨8, _⟩ => ⟨S2048x64, .f32⟩
  | .local _ .vmem, ⟨9, _⟩ => ⟨S2048x64, .f32⟩
  | _, _ => ⟨S8192x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_c : Ref sig .tc := ⟨.hbm, 10, rfl⟩
abbrev main_v5 : Ref sig .tc := ⟨.hbm, 11, rfl⟩
abbrev main_v6 : Ref sig .tc := ⟨.hbm, 12, rfl⟩
abbrev main_c_0 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_c_1 : Ref sig .tc := ⟨.hbm, 17, rfl⟩
abbrev main_v10 : Ref sig .tc := ⟨.hbm, 18, rfl⟩
abbrev main_v11 : Ref sig .tc := ⟨.hbm, 19, rfl⟩
abbrev main_c_2 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst_3 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_cst_4 : Ref sig .tc := ⟨.hbm, 31, rfl⟩
abbrev main_v21 : Ref sig .tc := ⟨.hbm, 32, rfl⟩
abbrev main_cst_5 : Ref sig .tc := ⟨.hbm, 33, rfl⟩
abbrev main_v22 : Ref sig .tc := ⟨.hbm, 34, rfl⟩
abbrev main_v23 : Ref sig .tc := ⟨.hbm, 35, rfl⟩
abbrev main_cst_6 : Ref sig .tc := ⟨.hbm, 36, rfl⟩
abbrev main_v24 : Ref sig .tc := ⟨.hbm, 37, rfl⟩
abbrev main_v25 : Ref sig .tc := ⟨.hbm, 38, rfl⟩
abbrev main_cst_7 : Ref sig .tc := ⟨.hbm, 39, rfl⟩
abbrev main_v26 : Ref sig .tc := ⟨.hbm, 40, rfl⟩
abbrev main_v27 : Ref sig .tc := ⟨.hbm, 41, rfl⟩
abbrev main_cst_8 : Ref sig .tc := ⟨.hbm, 42, rfl⟩
abbrev main_call0_v0 : Ref sig .tc := ⟨.hbm, 43, rfl⟩
abbrev main_call0_v1 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_scratch0 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨2, ![4, 4], ![false, false]⟩

def k0_mult1 (i : grid0.Coords) : BitVec 32 :=
  let arg1 : BitVec 32 := BitVec.ofNat 32 (i 1).val
  let c2048_i32 : BitVec 32 := 2048#32
  let v5 : BitVec 32 := Scalar.muli arg1 c2048_i32
  v5
def k0_off1 (i : grid0.Coords) : Fin 2 → Nat :=
  let arg1 : BitVec 32 := BitVec.ofNat 32 (i 1).val
  let c2048_i32 : BitVec 32 := 2048#32
  let v5 : BitVec 32 := Scalar.muli arg1 c2048_i32
  let v6 : BitVec 32 := v5
  let v7 : Index := Scalar.indexCast v6
  let c0_2 : Index := 0#32
  ![v7.toNat, 0]
def k0_cond3 (i : grid0.Coords) : BitVec 1 :=
  let arg1 : BitVec 32 := BitVec.ofNat 32 (i 1).val
  let c3_i32 : BitVec 32 := 3#32
  let v20 : BitVec 1 := Scalar.cmpi .eq arg1 c3_i32
  let v21 : BitVec 32 := Scalar.extui v20
  let c0_i32_8 : BitVec 32 := 0#32
  let v22 : BitVec 1 := Scalar.cmpi .ne v21 c0_i32_8
  v22

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S2048x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S8192x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S64x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S2048x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

class Facts₀ : Prop where
  bcast_S_S8192x8192 : S_.BroadcastsInDim S8192x8192 (![] : Fin 0 → Fin S8192x8192.rank)
  slices_S2x262144_S1x262144_0_0 : S2x262144.Slices ![0, 0] S1x262144
  shapeCasts_S1x262144_S262144 : S1x262144.ShapeCasts S262144
  slices_S2x262144_S1x262144_1_0 : S2x262144.Slices ![1, 0] S1x262144
  bcast_S_S262144 : S_.BroadcastsInDim S262144 (![] : Fin 0 → Fin S262144.rank)
  bcast_S262144_S262144x1_0 : S262144.BroadcastsInDim S262144x1 (![0] : Fin 1 → Fin S262144x1.rank)
  concatenates_S262144x1_S262144x1_S262144x2_d1 : Shape.Concatenates [S262144x1, S262144x1] S262144x2 1
  bitsLt_bf16_f32 : FTy.bits .bf16 < FTy.bits .f32
  reducesTo_S8192x8192_S8192_d1 : S8192x8192.ReducesTo [1] S8192
  h_S_ : 0 < S_.numel
  bcast_S_S8192 : S_.BroadcastsInDim S8192 (![] : Fin 0 → Fin S8192.rank)
  shapeCasts_S8192_S8192x1 : S8192.ShapeCasts S8192x1
  bcast_S8192_S8192x1_0 : S8192.BroadcastsInDim S8192x1 (![0] : Fin 1 → Fin S8192x1.rank)
  bcast_S8192x1_S8192x64_0_1 : S8192x1.BroadcastsInDim S8192x64 (![0, 1] : Fin 2 → Fin S8192x64.rank)
  shapeCasts_S64_S1x64 : S64.ShapeCasts S1x64
  inb_S2048x64_S2048x64_0_0 : ∀ a, (![0, 0] : Fin 2 → Nat) a + S2048x64.size a ≤ S2048x64.size a
  h_S2048x64 : 0 < S2048x64.numel
  shapeCasts_S2048x64_S2048x64 : S2048x64.ShapeCasts S2048x64
  inb_S2048x2048_S2048x2048_0_0 : ∀ a, (![0, 0] : Fin 2 → Nat) a + S2048x2048.size a ≤ S2048x2048.size a
  h_S2048x2048 : 0 < S2048x2048.numel
  shapeCasts_S2048x2048_S2048x2048 : S2048x2048.ShapeCasts S2048x2048
  inb_S2048x1_S2048x1_0_0 : ∀ a, (![0, 0] : Fin 2 → Nat) a + S2048x1.size a ≤ S2048x1.size a
  h_S2048x1 : 0 < S2048x1.numel
  shapeCasts_S2048x1_S2048x1 : S2048x1.ShapeCasts S2048x1
  broadcasts_S2048x1_S2048x64 : S2048x1.Broadcasts S2048x64
  inb_S64x64_S64x64_0_0 : ∀ a, (![0, 0] : Fin 2 → Nat) a + S64x64.size a ≤ S64x64.size a
  h_S64x64 : 0 < S64x64.numel
  transposes_S64x64_p1_0_S64x64 : S64x64.Transposes [1, 0] S64x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S2048x64 : S1x64.Broadcasts S2048x64
  scatter_S8192x8192_S262144x2_S262144_n_01_01_1_wf : ScatterDims.WF S8192x8192 S262144x2 S262144 [] [0, 1] [0, 1] 1
  dot_S2048x2048_S2048x64_S2048x64_1_0_0_1_n_n_wf : DotDims.WF S2048x2048 S2048x64 S2048x64 [1] [0] [0] [1] [] []
  dot_S2048x64_S64x64_S2048x64_1_0_0_1_n_n_wf : DotDims.WF S2048x64 S64x64 S2048x64 [1] [0] [0] [1] [] []
  hrank0 : 0 < grid0.rank
  k0_mult1_dvd : ∀ i : grid0.Coords, 2048 ∣ (k0_mult1 i).toNat
  k0_off1_inb : ∀ i : grid0.Coords, ∀ a, (k0_off1 i) a + S2048x64.size a ≤ S8192x64.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x2048.size a ≤ S8192x8192.size a
  hwx0_0 : ∀ i : grid0.Coords, EltTy.bits .bf16 = 32 ∨ (Rect.block (s := S8192x8192) S2048x2048.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S8192x64.size a ≤ S8192x64.size a
  hwx0_1 : ∀ i : grid0.Coords, EltTy.bits .f32 = 32 ∨ (Rect.block (s := S8192x64) S8192x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2048x1.size a ≤ S8192x1.size a
  hwx0_2 : ∀ i : grid0.Coords, EltTy.bits .f32 = 32 ∨ (Rect.block (s := S8192x1) S2048x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x64.size a ≤ S64x64.size a
  hwx0_3 : ∀ i : grid0.Coords, EltTy.bits .f32 = 32 ∨ (Rect.block (s := S64x64) S64x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x64.size a ≤ S1x64.size a
  hwx0_4 : ∀ i : grid0.Coords, EltTy.bits .f32 = 32 ∨ (Rect.block (s := S1x64) S1x64.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2048x64.size a ≤ S8192x64.size a
  hwx0_5 : ∀ i : grid0.Coords, EltTy.bits .f32 = 32 ∨ (Rect.block (s := S8192x64) S2048x64.size (cc0_transform_5 i) (hinb0_5 i)).WholeWords (EltTy.packing .f32)

variable [Facts₀]

def scatter_S8192x8192_S262144x2_S262144_n_01_01_1 : ScatterDims S8192x8192 S262144x2 S262144 where
  updateWindowDims := []
  insertedWindowDims := [0, 1]
  scatterDimsToOperandDims := [0, 1]
  indexVectorDim := 1
  wf := scatter_S8192x8192_S262144x2_S262144_n_01_01_1_wf
def dot_S2048x2048_S2048x64_S2048x64_1_0_0_1_n_n : DotDims S2048x2048 S2048x64 S2048x64 where
  lhsContracting := [1]
  rhsContracting := [0]
  lhsNonContracting := [0]
  rhsNonContracting := [1]
  lhsBatch := []
  rhsBatch := []
  wf := dot_S2048x2048_S2048x64_S2048x64_1_0_0_1_n_n_wf
def dot_S2048x64_S64x64_S2048x64_1_0_0_1_n_n : DotDims S2048x64 S64x64 S2048x64 where
  lhsContracting := [1]
  rhsContracting := [0]
  lhsNonContracting := [0]
  rhsNonContracting := [1]
  lhsBatch := []
  rhsBatch := []
  wf := dot_S2048x64_S64x64_S2048x64_1_0_0_1_n_n_wf

abbrev win0_0 : Pipeline.Window sig grid0 :=
  Pipeline.Window.ofSpec (Memref.whole main_v19) S2048x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v32) S8192x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v29) S2048x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg2) S64x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v33) S1x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v34) S2048x64.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev idle0 : Fin 6 → grid0.Coords → Bool := fun | 0 => fun _ => false | 1 => fun _ => false | 2 => fun _ => false | 3 => fun _ => false | 4 => fun _ => false | 5 => fun i => !(k0_cond3 i == 1#1) | ⟨_ + 6, h⟩ => absurd h (Nat.not_lt.2 (Nat.le_add_left _ _))

class Facts : Prop extends Facts₀ where

variable [Facts]
-- ==== ReferenceIdeal.lean ====
abbrev S8192x64 : Shape := ⟨2, ![8192, 64]⟩
abbrev S2x262144 : Shape := ⟨2, ![2, 262144]⟩
abbrev S64x64 : Shape := ⟨2, ![64, 64]⟩
abbrev S64 : Shape := ⟨1, ![64]⟩
abbrev S_ : Shape := ⟨0, ![]⟩
abbrev S8192x8192 : Shape := ⟨2, ![8192, 8192]⟩
abbrev S1x262144 : Shape := ⟨2, ![1, 262144]⟩
abbrev S262144 : Shape := ⟨1, ![262144]⟩
abbrev S262144x1 : Shape := ⟨2, ![262144, 1]⟩
abbrev S262144x2 : Shape := ⟨2, ![262144, 2]⟩
abbrev S8192 : Shape := ⟨1, ![8192]⟩
abbrev S8192x1 : Shape := ⟨2, ![8192, 1]⟩
abbrev S1x8192 : Shape := ⟨2, ![1, 8192]⟩
abbrev S1x64 : Shape := ⟨2, ![1, 64]⟩

abbrev nBuf : Space → Nat
  | .hbm => 62
  | .vmem => 0
  | .smem => 0
  | _ => 0

abbrev bufTy : (tb : Table) → Fin (tcTables nBuf tb) → BufTy
  | .hbm, ⟨0, _⟩ => ⟨S8192x64, .f32⟩
  | .hbm, ⟨1, _⟩ => ⟨S2x262144, .i32⟩
  | .hbm, ⟨2, _⟩ => ⟨S64x64, .f32⟩
  | .hbm, ⟨3, _⟩ => ⟨S64, .f32⟩
  | .hbm, ⟨4, _⟩ => ⟨S_, .f32⟩
  | .hbm, ⟨5, _⟩ => ⟨S8192x8192, .f32⟩
  | .hbm, ⟨6, _⟩ => ⟨S1x262144, .i32⟩
  | .hbm, ⟨7, _⟩ => ⟨S262144, .i32⟩
  | .hbm, ⟨8, _⟩ => ⟨S1x262144, .i32⟩
  | .hbm, ⟨9, _⟩ => ⟨S262144, .i32⟩
  | .hbm, ⟨10, _⟩ => ⟨S_, .i32⟩
  | .hbm, ⟨11, _⟩ => ⟨S262144, .i32⟩
  | .hbm, ⟨12, _⟩ => ⟨S262144, .i1⟩
  | .hbm, ⟨13, _⟩ => ⟨S_, .i32⟩
  | .hbm, ⟨14, _⟩ => ⟨S262144, .i32⟩
  | .hbm, ⟨15, _⟩ => ⟨S262144, .i32⟩
  | .hbm, ⟨16, _⟩ => ⟨S262144, .i32⟩
  | .hbm, ⟨17, _⟩ => ⟨S_, .i32⟩
  | .hbm, ⟨18, _⟩ => ⟨S262144, .i32⟩
  | .hbm, ⟨19, _⟩ => ⟨S262144, .i1⟩
  | .hbm, ⟨20, _⟩ => ⟨S_, .i32⟩
  | .hbm, ⟨21, _⟩ => ⟨S262144, .i32⟩
  | .hbm, ⟨22, _⟩ => ⟨S262144, .i32⟩
  | .hbm, ⟨23, _⟩ => ⟨S262144, .i32⟩
  | .hbm, ⟨24, _⟩ => ⟨S262144x1, .i32⟩
  | .hbm, ⟨25, _⟩ => ⟨S262144x1, .i32⟩
  | .hbm, ⟨26, _⟩ => ⟨S262144x2, .i32⟩
  | .hbm, ⟨27, _⟩ => ⟨S_, .f32⟩
  | .hbm, ⟨28, _⟩ => ⟨S262144, .f32⟩
  | .hbm, ⟨29, _⟩ => ⟨S8192x8192, .f32⟩
  | .hbm, ⟨30, _⟩ => ⟨S8192x8192, .i32⟩
  | .hbm, ⟨31, _⟩ => ⟨S8192x8192, .i32⟩
  | .hbm, ⟨32, _⟩ => ⟨S_, .i32⟩
  | .hbm, ⟨33, _⟩ => ⟨S8192x8192, .i32⟩
  | .hbm, ⟨34, _⟩ => ⟨S8192x8192, .i32⟩
  | .hbm, ⟨35, _⟩ => ⟨S8192x8192, .i1⟩
  | .hbm, ⟨36, _⟩ => ⟨S8192x8192, .f32⟩
  | .hbm, ⟨37, _⟩ => ⟨S8192x8192, .f32⟩
  | .hbm, ⟨38, _⟩ => ⟨S_, .f32⟩
  | .hbm, ⟨39, _⟩ => ⟨S8192, .f32⟩
  | .hbm, ⟨40, _⟩ => ⟨S_, .f32⟩
  | .hbm, ⟨41, _⟩ => ⟨S8192, .f32⟩
  | .hbm, ⟨42, _⟩ => ⟨S8192, .i1⟩
  | .hbm, ⟨43, _⟩ => ⟨S_, .f32⟩
  | .hbm, ⟨44, _⟩ => ⟨S8192, .f32⟩
  | .hbm, ⟨45, _⟩ => ⟨S8192, .f32⟩
  | .hbm, ⟨46, _⟩ => ⟨S_, .f32⟩
  | .hbm, ⟨47, _⟩ => ⟨S_, .f32⟩
  | .hbm, ⟨48, _⟩ => ⟨S8192, .f32⟩
  | .hbm, ⟨49, _⟩ => ⟨S8192, .f32⟩
  | .hbm, ⟨50, _⟩ => ⟨S8192x1, .f32⟩
  | .hbm, ⟨51, _⟩ => ⟨S8192x8192, .f32⟩
  | .hbm, ⟨52, _⟩ => ⟨S8192x8192, .f32⟩
  | .hbm, ⟨53, _⟩ => ⟨S1x8192, .f32⟩
  | .hbm, ⟨54, _⟩ => ⟨S8192x8192, .f32⟩
  | .hbm, ⟨55, _⟩ => ⟨S8192x8192, .f32⟩
  | .hbm, ⟨56, _⟩ => ⟨S8192x64, .f32⟩
  | .hbm, ⟨57, _⟩ => ⟨S64x64, .f32⟩
  | .hbm, ⟨58, _⟩ => ⟨S8192x64, .f32⟩
  | .hbm, ⟨59, _⟩ => ⟨S1x64, .f32⟩
  | .hbm, ⟨60, _⟩ => ⟨S8192x64, .f32⟩
  | .hbm, ⟨61, _⟩ => ⟨S8192x64, .f32⟩
  | _, _ => ⟨S8192x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_c : Ref sig .tc := ⟨.hbm, 10, rfl⟩
abbrev main_v5 : Ref sig .tc := ⟨.hbm, 11, rfl⟩
abbrev main_v6 : Ref sig .tc := ⟨.hbm, 12, rfl⟩
abbrev main_c_0 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_c_1 : Ref sig .tc := ⟨.hbm, 17, rfl⟩
abbrev main_v10 : Ref sig .tc := ⟨.hbm, 18, rfl⟩
abbrev main_v11 : Ref sig .tc := ⟨.hbm, 19, rfl⟩
abbrev main_c_2 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst_3 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_c_4 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_cst_5 : Ref sig .tc := ⟨.hbm, 38, rfl⟩
abbrev main_v27 : Ref sig .tc := ⟨.hbm, 39, rfl⟩
abbrev main_cst_6 : Ref sig .tc := ⟨.hbm, 40, rfl⟩
abbrev main_v28 : Ref sig .tc := ⟨.hbm, 41, rfl⟩
abbrev main_v29 : Ref sig .tc := ⟨.hbm, 42, rfl⟩
abbrev main_cst_7 : Ref sig .tc := ⟨.hbm, 43, rfl⟩
abbrev main_v30 : Ref sig .tc := ⟨.hbm, 44, rfl⟩
abbrev main_v31 : Ref sig .tc := ⟨.hbm, 45, rfl⟩
abbrev main_cst_8 : Ref sig .tc := ⟨.hbm, 46, rfl⟩
abbrev main_call0_v0 : Ref sig .tc := ⟨.hbm, 47, rfl⟩
abbrev main_call0_v1 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩

abbrev nD : Nat := 1
abbrev τ : Topo := Topo.v7x

variable {F : FTy → Type} [FloatOps F]

class Facts₀ : Prop where
  bcast_S_S8192x8192 : S_.BroadcastsInDim S8192x8192 (![] : Fin 0 → Fin S8192x8192.rank)
  slices_S2x262144_S1x262144_0_0 : S2x262144.Slices ![0, 0] S1x262144
  shapeCasts_S1x262144_S262144 : S1x262144.ShapeCasts S262144
  slices_S2x262144_S1x262144_1_0 : S2x262144.Slices ![1, 0] S1x262144
  bcast_S_S262144 : S_.BroadcastsInDim S262144 (![] : Fin 0 → Fin S262144.rank)
  bcast_S262144_S262144x1_0 : S262144.BroadcastsInDim S262144x1 (![0] : Fin 1 → Fin S262144x1.rank)
  concatenates_S262144x1_S262144x1_S262144x2_d1 : Shape.Concatenates [S262144x1, S262144x1] S262144x2 1
  reducesTo_S8192x8192_S8192_d1 : S8192x8192.ReducesTo [1] S8192
  h_S_ : 0 < S_.numel
  bcast_S_S8192 : S_.BroadcastsInDim S8192 (![] : Fin 0 → Fin S8192.rank)
  bcast_S8192_S8192x1_0 : S8192.BroadcastsInDim S8192x1 (![0] : Fin 1 → Fin S8192x1.rank)
  bcast_S8192x1_S8192x8192_0_1 : S8192x1.BroadcastsInDim S8192x8192 (![0, 1] : Fin 2 → Fin S8192x8192.rank)
  bcast_S8192_S1x8192_1 : S8192.BroadcastsInDim S1x8192 (![1] : Fin 1 → Fin S1x8192.rank)
  bcast_S1x8192_S8192x8192_0_1 : S1x8192.BroadcastsInDim S8192x8192 (![0, 1] : Fin 2 → Fin S8192x8192.rank)
  transposes_S64x64_S64x64_1_0 : S64x64.Transposes [1, 0] S64x64
  bcast_S64_S1x64_1 : S64.BroadcastsInDim S1x64 (![1] : Fin 1 → Fin S1x64.rank)
  bcast_S1x64_S8192x64_0_1 : S1x64.BroadcastsInDim S8192x64 (![0, 1] : Fin 2 → Fin S8192x64.rank)
  scatter_S8192x8192_S262144x2_S262144_n_01_01_1_wf : ScatterDims.WF S8192x8192 S262144x2 S262144 [] [0, 1] [0, 1] 1
  dot_S8192x8192_S8192x64_S8192x64_1_0_0_1_n_n_wf : DotDims.WF S8192x8192 S8192x64 S8192x64 [1] [0] [0] [1] [] []
  dot_S8192x64_S64x64_S8192x64_1_0_0_1_n_n_wf : DotDims.WF S8192x64 S64x64 S8192x64 [1] [0] [0] [1] [] []

variable [Facts₀]

def scatter_S8192x8192_S262144x2_S262144_n_01_01_1 : ScatterDims S8192x8192 S262144x2 S262144 where
  updateWindowDims := []
  insertedWindowDims := [0, 1]
  scatterDimsToOperandDims := [0, 1]
  indexVectorDim := 1
  wf := scatter_S8192x8192_S262144x2_S262144_n_01_01_1_wf
def dot_S8192x8192_S8192x64_S8192x64_1_0_0_1_n_n : DotDims S8192x8192 S8192x64 S8192x64 where
  lhsContracting := [1]
  rhsContracting := [0]
  lhsNonContracting := [0]
  rhsNonContracting := [1]
  lhsBatch := []
  rhsBatch := []
  wf := dot_S8192x8192_S8192x64_S8192x64_1_0_0_1_n_n_wf
def dot_S8192x64_S64x64_S8192x64_1_0_0_1_n_n : DotDims S8192x64 S64x64 S8192x64 where
  lhsContracting := [1]
  rhsContracting := [0]
  lhsNonContracting := [0]
  rhsNonContracting := [1]
  lhsBatch := []
  rhsBatch := []
  wf := dot_S8192x64_S64x64_S8192x64_1_0_0_1_n_n_wf

class Facts : Prop extends Facts₀ where

variable [Facts]
-- ==== Proof.KernelCases.lean ====
/-
  What one grid point of the kernel leaves behind, case by case.

  The body keeps a running accumulator (a 2048 × 64 block) across the four steps `k = 0 … 3` of a row
  block `i`.  At every step it adds the product of the 2048 × 2048 adjacency tile with the `k`-th
  block of 2048 rows of the (already column-scaled) features; at the first step it starts from the
  zero block; on the diagonal tile (`i = k`) it adds those feature rows themselves once more; at the
  last step it scales the accumulator by the row factors, multiplies by the transposed weights, adds
  the bias and writes the output block.  The six lemmas below read these values off the stores each
  case makes, the later store winning where several cover the accumulator; they hold for any float
  instance.
-/
import proofs.«106884_j37254546325944_2_alg».proof.Proof.Gen.KernelIdeal.Frame
import Idealize.ShloMosaic.Lib.Pipeline.Value
import Idealize.ShloMosaic.Lib.Tactic

set_option maxRecDepth 16384

noncomputable section

open Idealize.ShloMosaic Idealize.ShloMosaic.TcCoe Idealize.SL.Sem
open Idealize.ShloMosaic.Pipeline (Dat)

namespace Cert.KernelIdeal.Cases

open Cert.KernelIdeal Cert.KernelIdeal.Gen

variable {F : FTy → Type} [FloatOps F]

theorem hz : (![0, 0] : Fin 2 → Nat) = fun _ => 0 := funext fun a => by fin_cases a <;> rfl

/-- A load of the whole buffer after a list of stores whose LAST one covered the whole buffer reads that
    store's value, whatever the earlier stores were. -/
theorem readCov_cons_unit_zero {Val : EltTy → Type} [∀ e, Nonempty (Val e)] {S : Shape} {e : EltTy} {sig : RefSig}
    {κ : Kind} {sp : Space} (v : View sig κ sp S e) {off : Fin S.rank → Nat} (h : off = fun _ => 0)
    (inb : ∀ a, off a + S.size a ≤ S.size a) (w : S.Idx → Val e) (L : List (View.Piece Val S e)) :
    v.readCov ((⟨Rect.unit off S.size inb, w⟩ : View.Piece Val S e) :: L) (Rect.unit off S.size inb).toLoadRect = w := by
  subst h
  rw [View.readCov_eq_canon_ld _ _ _ (fun y => ⟨_, List.mem_cons_self, by
    show y ∈ (Rect.whole S).set; rw [Rect.set_whole]; exact Finset.mem_univ y⟩), View.canon_cons_unit_zero rfl,
    View.ld_unit_zero rfl]

/-- The 2048 feature rows the body loads at step `k` of the grid: rows `2048·k …` of the resident array. -/
def xrows (i : grid0.Coords) (x1 : Vec F S8192x64 .f32) : Vec F S2048x64 .f32 :=
  View.ld x1 (Rect.unit (s := S8192x64) (k0_off1 i) S2048x64.size (k0_off1_inb i))

/-- First step of a row block, on the diagonal tile: zero, plus the tile product, plus the feature rows. -/
theorem acc_first_diag (c : Dev nD) (i : grid0.Coords) (a2 : Memref sig .tc .vmem S2048x2048 .bf16) (h2 : a2.IsWhole) (a3 : Memref sig .tc .vmem S8192x64 .f32) (h3 : a3.IsWhole) (a4 : Memref sig .tc .vmem S2048x1 .f32) (h4 : a4.IsWhole) (a5 : Memref sig .tc .vmem S64x64 .f32) (h5 : a5.IsWhole) (a6 : Memref sig .tc .vmem S1x64 .f32) (h6 : a6.IsWhole) (a7 : Memref sig .tc .vmem S2048x64 .f32) (h7 : a7.IsWhole) (a8 : Memref sig .tc .vmem S2048x64 .f32) (h8 : a8.IsWhole) (hc0 : cond0_0 i) (hc1 : cond0_1 i) (hc2 : ¬cond0_2 i)
    (x0 : Vec F S2048x2048 .bf16) (x1 : Vec F S8192x64 .f32) (x2 : Vec F S2048x1 .f32) (x3 : Vec F S64x64 .f32) (x4 : Vec F S1x64 .f32) :
    sout0_A_0 c i a2 h2 a3 h3 a4 h4 a5 h5 a6 h6 a7 h7 a8 h8 hc0 hc1 hc2 x0 x1 x2 x3 x4 = k0_pay4 (xrows i x1) (k0_pay3 x0 (xrows i x1) k0_pay1) := by
  unfold sout0_A_0
  rw [View.read_writes_eq_canon _ _ _ (scover0_A_0 c i a2 h2 a3 h3 a4 h4 a5 h5 a6 h6 a7 h7 a8 h8 hc0 hc1 hc2 x0 x1 x2 x3 x4)]
  unfold kernelRun0_A
  dsimp only
  sl_unfold_words
  simp only [View.canon_cons_unit_zero (S := S2048x64) hz, readCov_cons_unit_zero (S := S2048x64) _ hz, View.readAt_eq_ld, h2.read_unread, h3.read_unread,
    h4.read_unread, h5.read_unread, h6.read_unread, h8.read_unread, View.ld_unit_zero (S := S2048x64) hz,
    View.ld_unit_zero (S := S2048x2048) hz, View.ld_unit_zero (S := S2048x1) hz, View.ld_unit_zero (S := S64x64) hz,
    View.ld_unit_zero (S := S1x64) hz]
  rfl

/-- First step of a row block, off the diagonal: zero plus the tile product. -/
theorem acc_first (c : Dev nD) (i : grid0.Coords) (a2 : Memref sig .tc .vmem S2048x2048 .bf16) (h2 : a2.IsWhole) (a3 : Memref sig .tc .vmem S8192x64 .f32) (h3 : a3.IsWhole) (a4 : Memref sig .tc .vmem S2048x1 .f32) (h4 : a4.IsWhole) (a5 : Memref sig .tc .vmem S64x64 .f32) (h5 : a5.IsWhole) (a6 : Memref sig .tc .vmem S1x64 .f32) (h6 : a6.IsWhole) (a7 : Memref sig .tc .vmem S2048x64 .f32) (h7 : a7.IsWhole) (a8 : Memref sig .tc .vmem S2048x64 .f32) (h8 : a8.IsWhole) (hc0 : cond0_0 i) (hc1 : ¬cond0_1 i) (hc2 : ¬cond0_2 i)
    (x0 : Vec F S2048x2048 .bf16) (x1 : Vec F S8192x64 .f32) (x2 : Vec F S2048x1 .f32) (x3 : Vec F S64x64 .f32) (x4 : Vec F S1x64 .f32) :
    sout0_D_0 c i a2 h2 a3 h3 a4 h4 a5 h5 a6 h6 a7 h7 a8 h8 hc0 hc1 hc2 x0 x1 x2 x3 x4 = k0_pay3 x0 (xrows i x1) k0_pay1 := by
  unfold sout0_D_0
  rw [View.read_writes_eq_canon _ _ _ (scover0_D_0 c i a2 h2 a3 h3 a4 h4 a5 h5 a6 h6 a7 h7 a8 h8 hc0 hc1 hc2 x0 x1 x2 x3 x4)]
  unfold kernelRun0_D
  dsimp only
  sl_unfold_words
  simp only [View.canon_cons_unit_zero (S := S2048x64) hz, readCov_cons_unit_zero (S := S2048x64) _ hz, View.readAt_eq_ld, h2.read_unread, h3.read_unread,
    h4.read_unread, h5.read_unread, h6.read_unread, h8.read_unread, View.ld_unit_zero (S := S2048x64) hz,
    View.ld_unit_zero (S := S2048x2048) hz, View.ld_unit_zero (S := S2048x1) hz, View.ld_unit_zero (S := S64x64) hz,
    View.ld_unit_zero (S := S1x64) hz]
  rfl

/-- A middle step off the diagonal: the previous accumulator plus the tile product. -/
theorem acc_mid (c : Dev nD) (i : grid0.Coords) (a2 : Memref sig .tc .vmem S2048x2048 .bf16) (h2 : a2.IsWhole) (a3 : Memref sig .tc .vmem S8192x64 .f32) (h3 : a3.IsWhole) (a4 : Memref sig .tc .vmem S2048x1 .f32) (h4 : a4.IsWhole) (a5 : Memref sig .tc .vmem S64x64 .f32) (h5 : a5.IsWhole) (a6 : Memref sig .tc .vmem S1x64 .f32) (h6 : a6.IsWhole) (a7 : Memref sig .tc .vmem S2048x64 .f32) (h7 : a7.IsWhole) (a8 : Memref sig .tc .vmem S2048x64 .f32) (h8 : a8.IsWhole) (hc0 : ¬cond0_0 i) (hc1 : ¬cond0_1 i) (hc2 : ¬cond0_2 i)
    (x0 : Vec F S2048x2048 .bf16) (x1 : Vec F S8192x64 .f32) (x2 : Vec F S2048x1 .f32) (x3 : Vec F S64x64 .f32) (x4 : Vec F S1x64 .f32) (xs0 : Vec F S2048x64 .f32) :
    sout0_B_0 c i a2 h2 a3 h3 a4 h4 a5 h5 a6 h6 a7 h7 a8 h8 hc0 hc1 hc2 x0 x1 x2 x3 x4 xs0 = k0_pay3 x0 (xrows i x1) xs0 := by
  unfold sout0_B_0
  rw [View.read_writes_eq_canon _ _ _ (scover0_B_0 c i a2 h2 a3 h3 a4 h4 a5 h5 a6 h6 a7 h7 a8 h8 hc0 hc1 hc2 x0 x1 x2 x3 x4 xs0)]
  unfold kernelRun0_B
  dsimp only
  sl_unfold_words
  simp only [View.canon_cons_unit_zero (S := S2048x64) hz, readCov_cons_unit_zero (S := S2048x64) _ hz, View.readAt_eq_ld, h2.read_unread, h3.read_unread,
    h4.read_unread, h5.read_unread, h6.read_unread, h8.read_unread, View.ld_unit_zero (S := S2048x64) hz,
    View.ld_unit_zero (S := S2048x2048) hz, View.ld_unit_zero (S := S2048x1) hz, View.ld_unit_zero (S := S64x64) hz,
    View.ld_unit_zero (S := S1x64) hz]
  rfl

/-- A middle step on the diagonal tile: the tile product, then the feature rows, added to the previous accumulator. -/
theorem acc_mid_diag (c : Dev nD) (i : grid0.Coords) (a2 : Memref sig .tc .vmem S2048x2048 .bf16) (h2 : a2.IsWhole) (a3 : Memref sig .tc .vmem S8192x64 .f32) (h3 : a3.IsWhole) (a4 : Memref sig .tc .vmem S2048x1 .f32) (h4 : a4.IsWhole) (a5 : Memref sig .tc .vmem S64x64 .f32) (h5 : a5.IsWhole) (a6 : Memref sig .tc .vmem S1x64 .f32) (h6 : a6.IsWhole) (a7 : Memref sig .tc .vmem S2048x64 .f32) (h7 : a7.IsWhole) (a8 : Memref sig .tc .vmem S2048x64 .f32) (h8 : a8.IsWhole) (hc0 : ¬cond0_0 i) (hc1 : cond0_1 i) (hc2 : ¬cond0_2 i)
    (x0 : Vec F S2048x2048 .bf16) (x1 : Vec F S8192x64 .f32) (x2 : Vec F S2048x1 .f32) (x3 : Vec F S64x64 .f32) (x4 : Vec F S1x64 .f32) (xs0 : Vec F S2048x64 .f32) :
    sout0_E_0 c i a2 h2 a3 h3 a4 h4 a5 h5 a6 h6 a7 h7 a8 h8 hc0 hc1 hc2 x0 x1 x2 x3 x4 xs0 = k0_pay4 (xrows i x1) (k0_pay3 x0 (xrows i x1) xs0) := by
  unfold sout0_E_0
  rw [View.read_writes_eq_canon _ _ _ (scover0_E_0 c i a2 h2 a3 h3 a4 h4 a5 h5 a6 h6 a7 h7 a8 h8 hc0 hc1 hc2 x0 x1 x2 x3 x4 xs0)]
  unfold kernelRun0_E
  dsimp only
  sl_unfold_words
  simp only [View.canon_cons_unit_zero (S := S2048x64) hz, readCov_cons_unit_zero (S := S2048x64) _ hz, View.readAt_eq_ld, h2.read_unread, h3.read_unread,
    h4.read_unread, h5.read_unread, h6.read_unread, h8.read_unread, View.ld_unit_zero (S := S2048x64) hz,
    View.ld_unit_zero (S := S2048x2048) hz, View.ld_unit_zero (S := S2048x1) hz, View.ld_unit_zero (S := S64x64) hz,
    View.ld_unit_zero (S := S1x64) hz]
  rfl

/-- The last step off the diagonal leaves the accumulator as a middle step does. -/
theorem acc_last (c : Dev nD) (i : grid0.Coords) (a2 : Memref sig .tc .vmem S2048x2048 .bf16) (h2 : a2.IsWhole) (a3 : Memref sig .tc .vmem S8192x64 .f32) (h3 : a3.IsWhole) (a4 : Memref sig .tc .vmem S2048x1 .f32) (h4 : a4.IsWhole) (a5 : Memref sig .tc .vmem S64x64 .f32) (h5 : a5.IsWhole) (a6 : Memref sig .tc .vmem S1x64 .f32) (h6 : a6.IsWhole) (a7 : Memref sig .tc .vmem S2048x64 .f32) (h7 : a7.IsWhole) (a8 : Memref sig .tc .vmem S2048x64 .f32) (h8 : a8.IsWhole) (hc0 : ¬cond0_0 i) (hc1 : ¬cond0_1 i) (hc2 : cond0_2 i)
    (x0 : Vec F S2048x2048 .bf16) (x1 : Vec F S8192x64 .f32) (x2 : Vec F S2048x1 .f32) (x3 : Vec F S64x64 .f32) (x4 : Vec F S1x64 .f32) (xs0 : Vec F S2048x64 .f32) :
    sout0_C_0 c i a2 h2 a3 h3 a4 h4 a5 h5 a6 h6 a7 h7 a8 h8 hc0 hc1 hc2 x0 x1 x2 x3 x4 xs0 = k0_pay3 x0 (xrows i x1) xs0 := by
  unfold sout0_C_0
  rw [View.read_writes_eq_canon _ _ _ (scover0_C_0 c i a2 h2 a3 h3 a4 h4 a5 h5 a6 h6 a7 h7 a8 h8 hc0 hc1 hc2 x0 x1 x2 x3 x4 xs0)]
  unfold kernelRun0_C
  dsimp only
  sl_unfold_words
  simp only [View.canon_cons_unit_zero (S := S2048x64) hz, readCov_cons_unit_zero (S := S2048x64) _ hz, View.readAt_eq_ld, h2.read_unread, h3.read_unread,
    h4.read_unread, h5.read_unread, h6.read_unread, h8.read_unread, View.ld_unit_zero (S := S2048x64) hz,
    View.ld_unit_zero (S := S2048x2048) hz, View.ld_unit_zero (S := S2048x1) hz, View.ld_unit_zero (S := S64x64) hz,
    View.ld_unit_zero (S := S1x64) hz]
  rfl

/-- The last step on the diagonal tile leaves the accumulator as a middle diagonal step does. -/
theorem acc_last_diag (c : Dev nD) (i : grid0.Coords) (a2 : Memref sig .tc .vmem S2048x2048 .bf16) (h2 : a2.IsWhole) (a3 : Memref sig .tc .vmem S8192x64 .f32) (h3 : a3.IsWhole) (a4 : Memref sig .tc .vmem S2048x1 .f32) (h4 : a4.IsWhole) (a5 : Memref sig .tc .vmem S64x64 .f32) (h5 : a5.IsWhole) (a6 : Memref sig .tc .vmem S1x64 .f32) (h6 : a6.IsWhole) (a7 : Memref sig .tc .vmem S2048x64 .f32) (h7 : a7.IsWhole) (a8 : Memref sig .tc .vmem S2048x64 .f32) (h8 : a8.IsWhole) (hc0 : ¬cond0_0 i) (hc1 : cond0_1 i) (hc2 : cond0_2 i)
    (x0 : Vec F S2048x2048 .bf16) (x1 : Vec F S8192x64 .f32) (x2 : Vec F S2048x1 .f32) (x3 : Vec F S64x64 .f32) (x4 : Vec F S1x64 .f32) (xs0 : Vec F S2048x64 .f32) :
    sout0_F_0 c i a2 h2 a3 h3 a4 h4 a5 h5 a6 h6 a7 h7 a8 h8 hc0 hc1 hc2 x0 x1 x2 x3 x4 xs0 = k0_pay4 (xrows i x1) (k0_pay3 x0 (xrows i x1) xs0) := by
  unfold sout0_F_0
  rw [View.read_writes_eq_canon _ _ _ (scover0_F_0 c i a2 h2 a3 h3 a4 h4 a5 h5 a6 h6 a7 h7 a8 h8 hc0 hc1 hc2 x0 x1 x2 x3 x4 xs0)]
  unfold kernelRun0_F
  dsimp only
  sl_unfold_words
  simp only [View.canon_cons_unit_zero (S := S2048x64) hz, readCov_cons_unit_zero (S := S2048x64) _ hz, View.readAt_eq_ld, h2.read_unread, h3.read_unread,
    h4.read_unread, h5.read_unread, h6.read_unread, h8.read_unread, View.ld_unit_zero (S := S2048x64) hz,
    View.ld_unit_zero (S := S2048x2048) hz, View.ld_unit_zero (S := S2048x1) hz, View.ld_unit_zero (S := S64x64) hz,
    View.ld_unit_zero (S := S1x64) hz]
  rfl

/-- The output block written at the last step off the diagonal: the finished accumulator, scaled, times the transposed weights, plus the bias. -/
theorem out_last (c : Dev nD) (i : grid0.Coords) (a2 : Memref sig .tc .vmem S2048x2048 .bf16) (h2 : a2.IsWhole) (a3 : Memref sig .tc .vmem S8192x64 .f32) (h3 : a3.IsWhole) (a4 : Memref sig .tc .vmem S2048x1 .f32) (h4 : a4.IsWhole) (a5 : Memref sig .tc .vmem S64x64 .f32) (h5 : a5.IsWhole) (a6 : Memref sig .tc .vmem S1x64 .f32) (h6 : a6.IsWhole) (a7 : Memref sig .tc .vmem S2048x64 .f32) (h7 : a7.IsWhole) (a8 : Memref sig .tc .vmem S2048x64 .f32) (h8 : a8.IsWhole) (hc0 : ¬cond0_0 i) (hc1 : ¬cond0_1 i) (hc2 : cond0_2 i)
    (x0 : Vec F S2048x2048 .bf16) (x1 : Vec F S8192x64 .f32) (x2 : Vec F S2048x1 .f32) (x3 : Vec F S64x64 .f32) (x4 : Vec F S1x64 .f32) (xs0 : Vec F S2048x64 .f32) :
    out0_C_5 c i a2 h2 a3 h3 a4 h4 a5 h5 a6 h6 a7 h7 a8 h8 hc0 hc1 hc2 x0 x1 x2 x3 x4 xs0 = k0_pay5 (k0_pay3 x0 (xrows i x1) xs0) x2 x3 x4 := by
  unfold out0_C_5
  rw [View.read_writes_eq_canon _ _ _ (cover0_C_5 c i a2 h2 a3 h3 a4 h4 a5 h5 a6 h6 a7 h7 a8 h8 hc0 hc1 hc2 x0 x1 x2 x3 x4 xs0)]
  unfold kernelRun0_C
  dsimp only
  sl_unfold_words
  simp only [View.canon_cons_unit_zero (S := S2048x64) hz, readCov_cons_unit_zero (S := S2048x64) _ hz, View.readAt_eq_ld, h2.read_unread, h3.read_unread,
    h4.read_unread, h5.read_unread, h6.read_unread, h8.read_unread, View.ld_unit_zero (S := S2048x64) hz,
    View.ld_unit_zero (S := S2048x2048) hz, View.ld_unit_zero (S := S2048x1) hz, View.ld_unit_zero (S := S64x64) hz,
    View.ld_unit_zero (S := S1x64) hz]
  rfl

/-- The output block written at the last step on the diagonal tile. -/
theorem out_last_diag (c : Dev nD) (i : grid0.Coords) (a2 : Memref sig .tc .vmem S2048x2048 .bf16) (h2 : a2.IsWhole) (a3 : Memref sig .tc .vmem S8192x64 .f32) (h3 : a3.IsWhole) (a4 : Memref sig .tc .vmem S2048x1 .f32) (h4 : a4.IsWhole) (a5 : Memref sig .tc .vmem S64x64 .f32) (h5 : a5.IsWhole) (a6 : Memref sig .tc .vmem S1x64 .f32) (h6 : a6.IsWhole) (a7 : Memref sig .tc .vmem S2048x64 .f32) (h7 : a7.IsWhole) (a8 : Memref sig .tc .vmem S2048x64 .f32) (h8 : a8.IsWhole) (hc0 : ¬cond0_0 i) (hc1 : cond0_1 i) (hc2 : cond0_2 i)
    (x0 : Vec F S2048x2048 .bf16) (x1 : Vec F S8192x64 .f32) (x2 : Vec F S2048x1 .f32) (x3 : Vec F S64x64 .f32) (x4 : Vec F S1x64 .f32) (xs0 : Vec F S2048x64 .f32) :
    out0_F_5 c i a2 h2 a3 h3 a4 h4 a5 h5 a6 h6 a7 h7 a8 h8 hc0 hc1 hc2 x0 x1 x2 x3 x4 xs0 = k0_pay5 (k0_pay4 (xrows i x1) (k0_pay3 x0 (xrows i x1) xs0)) x2 x3 x4 := by
  unfold out0_F_5
  rw [View.read_writes_eq_canon _ _ _ (cover0_F_5 c i a2 h2 a3 h3 a4 h4 a5 h5 a6 h6 a7 h7 a8 h8 hc0 hc1 hc2 x0 x1 x2 x3 x4 xs0)]
  unfold kernelRun0_F
  dsimp only
  sl_unfold_words
  simp only [View.canon_cons_unit_zero (S := S2048x64) hz, readCov_cons_unit_zero (S := S2048x64) _ hz, View.readAt_eq_ld, h2.read_unread, h3.read_unread,
    h4.read_unread, h5.read_unread, h6.read_unread, h8.read_unread, View.ld_unit_zero (S := S2048x64) hz,
    View.ld_unit_zero (S := S2048x2048) hz, View.ld_unit_zero (S := S2048x1) hz, View.ld_unit_zero (S := S64x64) hz,
    View.ld_unit_zero (S := S1x64) hz]
  rfl

end Cert.KernelIdeal.Cases

end
-- ==== Proof.RealLaw.lean ====
/-
  The algebra that joins the two arrangements of the normalised graph convolution.

  With `a` a row of the adjacency matrix, `d` the inverse square roots of the degrees and `x` one
  column of the features, the reference forms the normalised row `d r · (a j + δ r j) · d j` and
  contracts it with `x`; the kernel scales the features first (`x j · d j`), contracts the raw row with
  them, adds the diagonal term `x r · d r` by itself, and scales by `d r` at the end.  Over the reals
  the two agree by distributivity and `∑ j, δ r j · y j = y r`; on extended reals distributivity
  needs every entry finite, so the law is stated for entries that are casts of reals.

  Also here: a sum over `Fin 8192` as four consecutive blocks of 2048, and the cast of a finite sum.
-/
import Mathlib.Data.EReal.Inv
import Mathlib.Algebra.BigOperators.Fin
import Mathlib.Tactic

open scoped BigOperators

namespace Cert.GcnLaw

/-- The cast `ℝ → EReal` commutes with finite sums. -/
theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A finite sum of casts of reals is the cast of a real. -/
theorem sum_coe_eq {ι : Type*} (s : Finset ι) (f : ι → ℝ) :
    ∑ i ∈ s, (f i : EReal) = ((∑ i ∈ s, f i : ℝ) : EReal) := (coe_sum s f).symm

/-- The law over the reals: scale-then-contract plus the diagonal term, scaled by `d r`, is the
    contraction of the normalised row `d r · (a j + δ r j) · d j` with `x`. -/
theorem real_law {ι : Type*} [Fintype ι] [DecidableEq ι] (a d x : ι → ℝ) (r : ι) :
    ((∑ j, a j * (x j * d j)) + x r * d r) * d r
      = ∑ j, ((d r * (a j + if r = j then 1 else 0)) * d j) * x j := by
  have h : ∀ j, ((d r * (a j + if r = j then (1 : ℝ) else 0)) * d j) * x j
      = d r * (a j * (x j * d j)) + (if r = j then d r * (d j * x j) else 0) := by
    intro j; split_ifs <;> ring
  simp only [h, Finset.sum_add_distrib, Finset.sum_ite_eq, Finset.mem_univ, if_true, ← Finset.mul_sum]
  ring

/-- The same law on extended reals whose entries are finite. -/
theorem ereal_law {ι : Type*} [Fintype ι] [DecidableEq ι] (a d x : ι → ℝ) (r : ι) :
    ((∑ j, (a j : EReal) * ((x j : EReal) * (d j : EReal))) + (x r : EReal) * (d r : EReal)) * (d r : EReal)
      = ∑ j, (((d r : EReal) * ((a j : EReal) + (if r = j then (1 : EReal) else 0))) * (d j : EReal)) * (x j : EReal) := by
  have e : ∀ j, (if r = j then (1 : EReal) else 0) = ((if r = j then (1 : ℝ) else 0 : ℝ) : EReal) := by
    intro j; split_ifs <;> simp
  simp only [e, ← EReal.coe_mul, ← EReal.coe_add, sum_coe_eq]
  exact congrArg _ (real_law a d x r)

/-- Row `2048 · k + q` of an array of 8192 rows: row `q` of its `k`-th block of 2048. -/
def blockRow (k : Fin 4) (q : Fin 2048) : Fin 8192 :=
  ⟨2048 * k.val + q.val, by have := k.isLt; have := q.isLt; omega⟩

/-- A sum over the 8192 rows is the sum over the four blocks of the sums inside each block
    (in any commutative monoid: no finiteness is involved). -/
theorem sum_blocks {M : Type*} [AddCommMonoid M] (f : Fin 8192 → M) :
    ∑ j, f j = ∑ k : Fin 4, ∑ q : Fin 2048, f (blockRow k q) := by
  have h1 : ∑ j : Fin 8192, f j = ∑ p : Fin 4 × Fin 2048, f (finProdFinEquiv p) :=
    (Equiv.sum_comp (finProdFinEquiv (m := 4) (n := 2048)) f).symm
  rw [h1, Fintype.sum_prod_type]
  refine Finset.sum_congr rfl fun k _ => Finset.sum_congr rfl fun q _ => congrArg f (Fin.ext ?_)
  show q.val + 2048 * k.val = 2048 * k.val + q.val
  omega

end Cert.GcnLaw
-- ==== Proof.KernelBlocks.lean ====
/-
  The blocks the kernel's region hands the body, read at an index.

  Write `A` for the adjacency matrix, `XS` for the column-scaled features, `DR` for the column of degree factors,
  `W` for the weights and `B2` for the bias row, as the region finds them.  At grid point `t = 4·i + k` (row block
  `i`, step `k`) the body sees the tile `A[2048·i + p, 2048·k + s]`, loads the feature rows `XS[2048·k + s, q]` out of
  the resident array, and sees the factors `DR[2048·i + p, 0]`; the weights and the bias row are resident whole.
-/
import proofs.«106884_j37254546325944_2_alg».proof.Proof.KernelCases
import proofs.«106884_j37254546325944_2_alg».proof.Proof.RealLaw
import Idealize.ShloMosaic.Lib.ValueIdx

set_option maxRecDepth 16384

noncomputable section

open Idealize.ShloMosaic Idealize.ShloMosaic.TcCoe Idealize.SL.Sem Idealize.ShloMosaic.ValueIdx
open Idealize.ShloMosaic.Pipeline (Dat)
open scoped BigOperators

namespace Cert.KernelIdeal.Final

open Cert.KernelIdeal Cert.KernelIdeal.Gen Cert.KernelIdeal.Cases Cert.GcnLaw

variable (m : (ℓ : Loc nD τ sig) → Buf (Elt Ideal) ℓ) (ρ : Dev nD → PrngReg)

/-- Row `2048·i + p` of an array of 8192 rows (reduced mod 8192 so that it is defined for every `i`). -/
def rowOf (i : ℕ) (p : Fin 2048) : Fin 8192 := ⟨(2048 * i + p.val) % 8192, Nat.mod_lt _ (by decide)⟩

theorem rowOf_eq_blockRow (k : Fin 4) (s : Fin 2048) : rowOf k.val s = blockRow k s :=
  Fin.ext (Nat.mod_eq_of_lt (by have := k.isLt; have := s.isLt; omega))

/-- The region's arrays. -/
abbrev A (c : Dev nD) : S8192x8192.Idx → EReal := V m c main_v19
abbrev XS (c : Dev nD) : S8192x64.Idx → EReal := V m c main_v32
abbrev DR (c : Dev nD) : S8192x1.Idx → EReal := V m c main_v29
abbrev W (c : Dev nD) : S64x64.Idx → EReal := V m c main_arg2
abbrev B2 (c : Dev nD) : S1x64.Idx → EReal := V m c main_v33

/-- The printed index maps over the grid: window 0 follows (row block, step), windows 2 and 5 the row block,
    the resident windows stay at block 0; the step is the point mod 4. -/
theorem idx_facts : ∀ t : Fin cfg0.N,
    win0_0.index t (0 : Fin 2) = t.val / 4 ∧ win0_0.index t (1 : Fin 2) = t.val % 4
    ∧ win0_1.index t (0 : Fin 2) = 0 ∧ win0_1.index t (1 : Fin 2) = 0
    ∧ win0_2.index t (0 : Fin 2) = t.val / 4 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val / 4 ∧ win0_5.index t (1 : Fin 2) = 0
    ∧ (grid0.coords t 1).val = t.val % 4 :=
  (by decide +kernel : ∀ t : Fin grid0.N, _)

/-! ## The input blocks, read at an index -/

/-- The adjacency tile of point `t`. -/
theorem tile_read (c : Dev nD) (t : Fin cfg0.N) (i k : ℕ) (hi : t.val / 4 = i) (hk : t.val % 4 = k) (p s : Fin 2048) :
    (iblk m c 0 t : Vec Ideal S2048x2048 .bf16) (ix2 p s) = A m c (ix2 (rowOf i p) (rowOf k s)) := by
  obtain ⟨e0, e1, -⟩ := idx_facts t
  have hN : t.val < 16 := lt_of_lt_of_eq t.isLt (show cfg0.N = 16 from N_0)
  unfold iblk
  rw [View.read_apply]
  show V m c main_v19 _ = V m c main_v19 _
  congr 1
  funext a
  apply Fin.ext
  match a with
  | ⟨0, _⟩ =>
    show win0_0.index t (0 : Fin 2) * 2048 + 1 * p.val = (2048 * i + p.val) % 8192
    have := p.isLt; omega
  | ⟨1, _⟩ =>
    show win0_0.index t (1 : Fin 2) * 2048 + 1 * s.val = (2048 * k + s.val) % 8192
    have := s.isLt; omega

/-- The feature rows the body loads at point `t`: rows `2048·k …` of the scaled features. -/
theorem rows_read (c : Dev nD) (t : Fin cfg0.N) (k : ℕ) (hk : t.val % 4 = k) (s : Fin 2048) (q : Fin 64) :
    xrows (grid0.coords t) (iblk m c 1 t) (ix2 s q) = XS m c (ix2 (rowOf k s) q) := by
  obtain ⟨-, -, e2, e3, -, -, -, -, -, -, -, -, e12⟩ := idx_facts t
  have hN : t.val < 16 := lt_of_lt_of_eq t.isLt (show cfg0.N = 16 from N_0)
  unfold xrows iblk
  show V m c main_v32 _ = V m c main_v32 _
  congr 1
  funext a
  apply Fin.ext
  match a with
  | ⟨0, _⟩ =>
    show win0_1.index t (0 : Fin 2) * 8192 + 1 * (k0_off1 (grid0.coords t) 0 + 1 * s.val) = (2048 * k + s.val) % 8192
    rw [k0_off1_eq]
    show win0_1.index t (0 : Fin 2) * 8192 + 1 * (2048 * (grid0.coords t 1).val + 1 * s.val) = _
    have := s.isLt; omega
  | ⟨1, _⟩ =>
    show win0_1.index t (1 : Fin 2) * 64 + 1 * (k0_off1 (grid0.coords t) 1 + 1 * q.val) = q.val
    rw [k0_off1_eq]
    show win0_1.index t (1 : Fin 2) * 64 + 1 * (0 + 1 * q.val) = q.val
    omega

/-- The degree factors of the rows of point `t`'s row block. -/
theorem dcol_read (c : Dev nD) (t : Fin cfg0.N) (i : ℕ) (hi : t.val / 4 = i) (p : Fin 2048) :
    (iblk m c 2 t : Vec Ideal S2048x1 .f32) (ix2 p 0) = DR m c (ix2 (rowOf i p) 0) := by
  obtain ⟨-, -, -, -, e4, e5, -⟩ := idx_facts t
  have hN : t.val < 16 := lt_of_lt_of_eq t.isLt (show cfg0.N = 16 from N_0)
  unfold iblk
  rw [View.read_apply]
  show V m c main_v29 _ = V m c main_v29 _
  congr 1
  funext a
  apply Fin.ext
  match a with
  | ⟨0, _⟩ =>
    show win0_2.index t (0 : Fin 2) * 2048 + 1 * p.val = (2048 * i + p.val) % 8192
    have := p.isLt; omega
  | ⟨1, _⟩ =>
    show win0_2.index t (1 : Fin 2) * 1 + 1 * 0 = 0
    omega

/-- The weights are resident: every point sees the whole array. -/
theorem w_read (c : Dev nD) (t : Fin cfg0.N) (y : S64x64.Idx) : (iblk m c 3 t : Vec Ideal S64x64 .f32) y = W m c y := by
  obtain ⟨-, -, -, -, -, -, e6, e7, -⟩ := idx_facts t
  unfold iblk
  rw [View.read_apply]
  show V m c main_arg2 _ = V m c main_arg2 _
  congr 1
  funext a
  apply Fin.ext
  match a with
  | ⟨0, _⟩ => show win0_3.index t (0 : Fin 2) * 64 + 1 * (y 0).val = (y 0).val; omega
  | ⟨1, _⟩ => show win0_3.index t (1 : Fin 2) * 64 + 1 * (y 1).val = (y 1).val; omega

/-- So is the bias row. -/
theorem b_read (c : Dev nD) (t : Fin cfg0.N) (y : S1x64.Idx) : (iblk m c 4 t : Vec Ideal S1x64 .f32) y = B2 m c y := by
  obtain ⟨-, -, -, -, -, -, -, -, e8, e9, -⟩ := idx_facts t
  unfold iblk
  rw [View.read_apply]
  show V m c main_v33 _ = V m c main_v33 _
  congr 1
  funext a
  apply Fin.ext
  match a with
  | ⟨0, _⟩ => show win0_4.index t (0 : Fin 2) * 1 + 1 * (y 0).val = (y 0).val; omega
  | ⟨1, _⟩ => show win0_4.index t (1 : Fin 2) * 64 + 1 * (y 1).val = (y 1).val; omega

end Cert.KernelIdeal.Final

end
-- ==== Proof.KernelAcc.lean ====
/-
  The accumulator after each grid point, and the output block at a last step.

  The sixteen grid points are visited row block by row block (`t = 4·i + k`).  `step` is what one point does
  to the accumulator it finds: add the product of the adjacency tile with the `k`-th block of feature rows,
  and on the diagonal tile (`t` a multiple of 5, that is `i = k`) add those feature rows as well.  `accAt`
  runs `step` along the points, restarting from the zero block at the first step of every row block
  (`t` a multiple of 4).  The generated description of the run, `outsAt0`, is this recursion (by induction on
  the point, one case lemma per kind of point), and at a last step (`t ≡ 3` mod 4) the output block is the
  epilogue applied to the finished accumulator.  Everything here holds for any float instance.
-/
import proofs.«106884_j37254546325944_2_alg».proof.Proof.KernelCases

set_option maxRecDepth 16384

noncomputable section

open Idealize.ShloMosaic Idealize.ShloMosaic.TcCoe Idealize.SL.Sem
open Idealize.ShloMosaic.Pipeline (Dat)

namespace Cert.KernelIdeal.Acc

open Cert.KernelIdeal Cert.KernelIdeal.Gen Cert.KernelIdeal.Cases

variable {F : FTy → Type} [FloatOps F]
variable (m : (ℓ : Loc nD τ sig) → Buf (Elt F) ℓ)

/-! ## One point at a time -/

set_option maxHeartbeats 4000000 in
/-- First step of a row block, on the diagonal tile. -/
theorem at_first_diag (c : Dev nD) (t : Fin cfg0.N) (h0 : t.val % 4 = 0) (h1 : t.val % 5 = 0) (h2 : ¬t.val % 4 = 3) :
    (outsAt0 m c t.val t.isLt).2 = k0_pay4 (xrows (grid0.coords t) (iblk m c 1 t)) (k0_pay3 (iblk m c 0 t) (xrows (grid0.coords t) (iblk m c 1 t)) k0_pay1) := by
  refine (congrArg Prod.snd (outsAt0_A m c t h0 h1 h2)).trans ?_
  exact acc_first_diag c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) ((hcond0_0 t).mpr h0) ((hcond0_1 t).mpr h1) (fun hh => h2 ((hcond0_2 t).mp hh)) (iblk m c 0 t) (iblk m c 1 t) (iblk m c 2 t) (iblk m c 3 t) (iblk m c 4 t)

set_option maxHeartbeats 4000000 in
/-- First step of a row block, off the diagonal. -/
theorem at_first (c : Dev nD) (t : Fin cfg0.N) (h0 : t.val % 4 = 0) (h1 : ¬t.val % 5 = 0) (h2 : ¬t.val % 4 = 3) :
    (outsAt0 m c t.val t.isLt).2 = k0_pay3 (iblk m c 0 t) (xrows (grid0.coords t) (iblk m c 1 t)) k0_pay1 := by
  refine (congrArg Prod.snd (outsAt0_D m c t h0 h1 h2)).trans ?_
  exact acc_first c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) ((hcond0_0 t).mpr h0) (fun hh => h1 ((hcond0_1 t).mp hh)) (fun hh => h2 ((hcond0_2 t).mp hh)) (iblk m c 0 t) (iblk m c 1 t) (iblk m c 2 t) (iblk m c 3 t) (iblk m c 4 t)

set_option maxHeartbeats 4000000 in
/-- A middle step off the diagonal. -/
theorem at_mid (c : Dev nD) (t : Fin cfg0.N) (h0 : ¬t.val % 4 = 0) (h1 : ¬t.val % 5 = 0) (h2 : ¬t.val % 4 = 3) :
    (outsAt0 m c t.val t.isLt).2 = k0_pay3 (iblk m c 0 t) (xrows (grid0.coords t) (iblk m c 1 t)) (outsAt0 m c (t.val - 1) (Nat.lt_of_le_of_lt (Nat.sub_le _ _) t.isLt)).2 := by
  refine (congrArg Prod.snd (outsAt0_B m c t h0 h1 h2)).trans ?_
  exact acc_mid c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun hh => h0 ((hcond0_0 t).mp hh)) (fun hh => h1 ((hcond0_1 t).mp hh)) (fun hh => h2 ((hcond0_2 t).mp hh)) (iblk m c 0 t) (iblk m c 1 t) (iblk m c 2 t) (iblk m c 3 t) (iblk m c 4 t) (outsAt0 m c (t.val - 1) (Nat.lt_of_le_of_lt (Nat.sub_le _ _) t.isLt)).2

set_option maxHeartbeats 4000000 in
/-- A middle step on the diagonal tile. -/
theorem at_mid_diag (c : Dev nD) (t : Fin cfg0.N) (h0 : ¬t.val % 4 = 0) (h1 : t.val % 5 = 0) (h2 : ¬t.val % 4 = 3) :
    (outsAt0 m c t.val t.isLt).2 = k0_pay4 (xrows (grid0.coords t) (iblk m c 1 t)) (k0_pay3 (iblk m c 0 t) (xrows (grid0.coords t) (iblk m c 1 t)) (outsAt0 m c (t.val - 1) (Nat.lt_of_le_of_lt (Nat.sub_le _ _) t.isLt)).2) := by
  refine (congrArg Prod.snd (outsAt0_E m c t h0 h1 h2)).trans ?_
  exact acc_mid_diag c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun hh => h0 ((hcond0_0 t).mp hh)) ((hcond0_1 t).mpr h1) (fun hh => h2 ((hcond0_2 t).mp hh)) (iblk m c 0 t) (iblk m c 1 t) (iblk m c 2 t) (iblk m c 3 t) (iblk m c 4 t) (outsAt0 m c (t.val - 1) (Nat.lt_of_le_of_lt (Nat.sub_le _ _) t.isLt)).2

set_option maxHeartbeats 4000000 in
/-- A last step off the diagonal. -/
theorem at_last (c : Dev nD) (t : Fin cfg0.N) (h0 : ¬t.val % 4 = 0) (h1 : ¬t.val % 5 = 0) (h2 : t.val % 4 = 3) :
    (outsAt0 m c t.val t.isLt).2 = k0_pay3 (iblk m c 0 t) (xrows (grid0.coords t) (iblk m c 1 t)) (outsAt0 m c (t.val - 1) (Nat.lt_of_le_of_lt (Nat.sub_le _ _) t.isLt)).2 := by
  refine (congrArg Prod.snd (outsAt0_C m c t h0 h1 h2)).trans ?_
  exact acc_last c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun hh => h0 ((hcond0_0 t).mp hh)) (fun hh => h1 ((hcond0_1 t).mp hh)) ((hcond0_2 t).mpr h2) (iblk m c 0 t) (iblk m c 1 t) (iblk m c 2 t) (iblk m c 3 t) (iblk m c 4 t) (outsAt0 m c (t.val - 1) (Nat.lt_of_le_of_lt (Nat.sub_le _ _) t.isLt)).2

set_option maxHeartbeats 4000000 in
/-- A last step on the diagonal tile. -/
theorem at_last_diag (c : Dev nD) (t : Fin cfg0.N) (h0 : ¬t.val % 4 = 0) (h1 : t.val % 5 = 0) (h2 : t.val % 4 = 3) :
    (outsAt0 m c t.val t.isLt).2 = k0_pay4 (xrows (grid0.coords t) (iblk m c 1 t)) (k0_pay3 (iblk m c 0 t) (xrows (grid0.coords t) (iblk m c 1 t)) (outsAt0 m c (t.val - 1) (Nat.lt_of_le_of_lt (Nat.sub_le _ _) t.isLt)).2) := by
  refine (congrArg Prod.snd (outsAt0_F m c t h0 h1 h2)).trans ?_
  exact acc_last_diag c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun hh => h0 ((hcond0_0 t).mp hh)) ((hcond0_1 t).mpr h1) ((hcond0_2 t).mpr h2) (iblk m c 0 t) (iblk m c 1 t) (iblk m c 2 t) (iblk m c 3 t) (iblk m c 4 t) (outsAt0 m c (t.val - 1) (Nat.lt_of_le_of_lt (Nat.sub_le _ _) t.isLt)).2

set_option maxHeartbeats 4000000 in
/-- At a last step the output block is the epilogue of what the point leaves in the accumulator. -/
theorem out_of_scratch (c : Dev nD) (t : Fin cfg0.N) (h2 : t.val % 4 = 3) :
    (outsAt0 m c t.val t.isLt).1
      = k0_pay5 (outsAt0 m c t.val t.isLt).2 (iblk m c 2 t) (iblk m c 3 t) (iblk m c 4 t) := by
  have h0 : ¬t.val % 4 = 0 := by omega
  by_cases h1 : t.val % 5 = 0
  · rw [outsAt0_F m c t h0 h1 h2]
    dsimp only
    refine (out_last_diag c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun hh => h0 ((hcond0_0 t).mp hh)) ((hcond0_1 t).mpr h1) ((hcond0_2 t).mpr h2) (iblk m c 0 t) (iblk m c 1 t) (iblk m c 2 t) (iblk m c 3 t) (iblk m c 4 t) (outsAt0 m c (t.val - 1) (Nat.lt_of_le_of_lt (Nat.sub_le _ _) t.isLt)).2).trans ?_
    exact congrArg (fun z => k0_pay5 z (iblk m c 2 t) (iblk m c 3 t) (iblk m c 4 t))
      (acc_last_diag c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun hh => h0 ((hcond0_0 t).mp hh)) ((hcond0_1 t).mpr h1) ((hcond0_2 t).mpr h2) (iblk m c 0 t) (iblk m c 1 t) (iblk m c 2 t) (iblk m c 3 t) (iblk m c 4 t) (outsAt0 m c (t.val - 1) (Nat.lt_of_le_of_lt (Nat.sub_le _ _) t.isLt)).2).symm
  · rw [outsAt0_C m c t h0 h1 h2]
    dsimp only
    refine (out_last c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun hh => h0 ((hcond0_0 t).mp hh)) (fun hh => h1 ((hcond0_1 t).mp hh)) ((hcond0_2 t).mpr h2) (iblk m c 0 t) (iblk m c 1 t) (iblk m c 2 t) (iblk m c 3 t) (iblk m c 4 t) (outsAt0 m c (t.val - 1) (Nat.lt_of_le_of_lt (Nat.sub_le _ _) t.isLt)).2).trans ?_
    exact congrArg (fun z => k0_pay5 z (iblk m c 2 t) (iblk m c 3 t) (iblk m c 4 t))
      (acc_last c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun hh => h0 ((hcond0_0 t).mp hh)) (fun hh => h1 ((hcond0_1 t).mp hh)) ((hcond0_2 t).mpr h2) (iblk m c 0 t) (iblk m c 1 t) (iblk m c 2 t) (iblk m c 3 t) (iblk m c 4 t) (outsAt0 m c (t.val - 1) (Nat.lt_of_le_of_lt (Nat.sub_le _ _) t.isLt)).2).symm

/-! ## Along the points -/

/-- What point `t` makes of the accumulator `acc` it finds. -/
def step (c : Dev nD) (t : Fin cfg0.N) (acc : Vec F S2048x64 .f32) : Vec F S2048x64 .f32 :=
  if t.val % 5 = 0 then k0_pay4 (xrows (grid0.coords t) (iblk m c 1 t)) (k0_pay3 (iblk m c 0 t) (xrows (grid0.coords t) (iblk m c 1 t)) acc)
  else k0_pay3 (iblk m c 0 t) (xrows (grid0.coords t) (iblk m c 1 t)) acc

/-- The accumulator after point `n`. -/
def accAt (c : Dev nD) : (n : ℕ) → n < cfg0.N → Vec F S2048x64 .f32
  | 0, h => step m c ⟨0, h⟩ k0_pay1
  | n + 1, h => step m c ⟨n + 1, h⟩ (if (n + 1) % 4 = 0 then k0_pay1 else accAt c n (Nat.lt_of_succ_lt h))

theorem accAt_succ (c : Dev nD) (n : ℕ) (h : n + 1 < cfg0.N) :
    accAt m c (n + 1) h = step m c ⟨n + 1, h⟩ (if (n + 1) % 4 = 0 then k0_pay1 else accAt m c n (Nat.lt_of_succ_lt h)) := rfl

/-- The run's accumulator after each point is `accAt`. -/
theorem scratch_eq (c : Dev nD) : ∀ (n : ℕ) (h : n < cfg0.N), (outsAt0 m c n h).2 = accAt m c n h
  | 0, h => by
    have e := at_first_diag m c ⟨0, h⟩ (Nat.zero_mod 4) (Nat.zero_mod 5) (fun hh => absurd ((Nat.zero_mod 4).symm.trans hh) (by decide))
    refine e.trans ?_
    show _ = step m c ⟨0, h⟩ k0_pay1
    unfold step
    rw [if_pos (Nat.zero_mod 5)]
  | n + 1, h => by
    have hN : n + 1 < 16 := lt_of_lt_of_eq h (show cfg0.N = 16 from N_0)
    have ih := scratch_eq c n (Nat.lt_of_succ_lt h)
    rw [accAt_succ]
    unfold step
    by_cases h0 : (n + 1) % 4 = 0 <;> by_cases h1 : (n + 1) % 5 = 0 <;> by_cases h2 : (n + 1) % 4 = 3
    · exact absurd h2 (by omega)
    · exact absurd h1 (by omega)
    · exact absurd h2 (by omega)
    · rw [if_neg h1, if_pos h0]
      exact at_first m c ⟨n + 1, h⟩ h0 h1 h2
    · rw [if_pos h1, if_neg h0, ← ih]
      exact at_last_diag m c ⟨n + 1, h⟩ h0 h1 h2
    · rw [if_pos h1, if_neg h0, ← ih]
      exact at_mid_diag m c ⟨n + 1, h⟩ h0 h1 h2
    · rw [if_neg h1, if_neg h0, ← ih]
      exact at_last m c ⟨n + 1, h⟩ h0 h1 h2
    · rw [if_neg h1, if_neg h0, ← ih]
      exact at_mid m c ⟨n + 1, h⟩ h0 h1 h2

/-- At a last step the output block is the epilogue of the finished accumulator: scaled by the row factors,
    times the transposed weights, plus the bias. -/
theorem out_eq (c : Dev nD) (t : Fin cfg0.N) (h2 : t.val % 4 = 3) :
    (outsAt0 m c t.val t.isLt).1 = k0_pay5 (accAt m c t.val t.isLt) (iblk m c 2 t) (iblk m c 3 t) (iblk m c 4 t) := by
  rw [← scratch_eq m c t.val t.isLt]
  exact out_of_scratch m c t h2

end Cert.KernelIdeal.Acc

end
-- ==== Proof.KernelPoint.lean ====
/-
  The kernel body's arithmetic read at one index, on the extended reals.

  * the reset block is `0`;
  * one step adds to the accumulator, at `(p, q)`, the sum over `s` of tile entry `(p, s)` times feature entry
    `(s, q)` (the product is taken into a zero accumulator; the change of format before it is the identity);
  * on the diagonal tile the feature entry `(p, q)` is added as well;
  * the epilogue at `(p, o)` is the sum over `c` of `acc (p, c) · d p · w (o, c)` (the weights enter transposed)
    plus the bias entry `o`.
-/
import proofs.«106884_j37254546325944_2_alg».proof.Proof.Gen.KernelIdeal.Skeleton
import Idealize.ShloMosaic.Lib.Pipeline.Value
import Idealize.ShloMosaic.Lib.ValueIdx
import Idealize.ShloMosaic.PureOps.Ideal.Laws

noncomputable section

open Idealize.ShloMosaic Idealize.ShloMosaic.ValueIdx
open scoped BigOperators

namespace Cert.KernelIdeal.Point

open Cert.KernelIdeal Cert.KernelIdeal.Gen

/-! ## The two products -/

theorem tile_lhs0 (i : S2048x64.Idx) (q : dot_S2048x2048_S2048x64_S2048x64_1_0_0_1_n_n.contr.Idx) : (dot_S2048x2048_S2048x64_S2048x64_1_0_0_1_n_n.lhsIdx i q 0).val = (i 0).val := by
  unfold DotDims.lhsIdx
  rw [dif_neg (show ¬(0 : Fin S2048x2048.rank) ∈ dot_S2048x2048_S2048x64_S2048x64_1_0_0_1_n_n.lhsBatch by decide), dif_pos (show (0 : Fin S2048x2048.rank) ∈ dot_S2048x2048_S2048x64_S2048x64_1_0_0_1_n_n.lhsNonContracting by decide)]
  rfl
theorem tile_lhs1 (i : S2048x64.Idx) (q : dot_S2048x2048_S2048x64_S2048x64_1_0_0_1_n_n.contr.Idx) : (dot_S2048x2048_S2048x64_S2048x64_1_0_0_1_n_n.lhsIdx i q 1).val = (q ⟨0, by decide⟩).val :=
  dot_S2048x2048_S2048x64_S2048x64_1_0_0_1_n_n.lhsIdx_val_of_single rfl i q
theorem tile_rhs0 (i : S2048x64.Idx) (q : dot_S2048x2048_S2048x64_S2048x64_1_0_0_1_n_n.contr.Idx) : (dot_S2048x2048_S2048x64_S2048x64_1_0_0_1_n_n.rhsIdx i q 0).val = (q ⟨0, by decide⟩).val :=
  dot_S2048x2048_S2048x64_S2048x64_1_0_0_1_n_n.rhsIdx_val_of_single rfl i q
theorem tile_rhs1 (i : S2048x64.Idx) (q : dot_S2048x2048_S2048x64_S2048x64_1_0_0_1_n_n.contr.Idx) : (dot_S2048x2048_S2048x64_S2048x64_1_0_0_1_n_n.rhsIdx i q 1).val = (i 1).val := by
  unfold DotDims.rhsIdx
  rw [dif_neg (show ¬(1 : Fin S2048x64.rank) ∈ dot_S2048x2048_S2048x64_S2048x64_1_0_0_1_n_n.rhsBatch by decide), dif_pos (show (1 : Fin S2048x64.rank) ∈ dot_S2048x2048_S2048x64_S2048x64_1_0_0_1_n_n.rhsNonContracting by decide)]
  rfl

/-- The product into a zero accumulator, read at `(p, q)`: the sum over the shared index of the products. -/
theorem tile_apply (l : FVec Ideal S2048x2048 .bf16) (r : FVec Ideal S2048x64 .bf16) (p : Fin 2048) (q : Fin 64) :
    matmul dot_S2048x2048_S2048x64_S2048x64_1_0_0_1_n_n none l r (constant (F := Ideal) S2048x64 .f32 0x00000000#32) (ix2 p q)
      = ∑ s : Fin 2048, l (ix2 p s) * r (ix2 s q) := by
  simp only [matmul]
  rw [Ideal.matmul_constant_zero_apply, ← Equiv.sum_comp (contrEquiv1 dot_S2048x2048_S2048x64_S2048x64_1_0_0_1_n_n 2048 rfl rfl).symm]
  refine Finset.sum_congr rfl fun k _ => ?_
  have hk := contrEquiv1_symm_val dot_S2048x2048_S2048x64_S2048x64_1_0_0_1_n_n 2048 rfl rfl k
  have el : dot_S2048x2048_S2048x64_S2048x64_1_0_0_1_n_n.lhsIdx (ix2 p q) ((contrEquiv1 dot_S2048x2048_S2048x64_S2048x64_1_0_0_1_n_n 2048 rfl rfl).symm k) = ix2 p k := funext fun a => Fin.ext (by
    match a with
    | ⟨0, _⟩ => exact tile_lhs0 _ _
    | ⟨1, _⟩ => exact (tile_lhs1 _ _).trans hk)
  have er : dot_S2048x2048_S2048x64_S2048x64_1_0_0_1_n_n.rhsIdx (ix2 p q) ((contrEquiv1 dot_S2048x2048_S2048x64_S2048x64_1_0_0_1_n_n 2048 rfl rfl).symm k) = ix2 k q := funext fun a => Fin.ext (by
    match a with
    | ⟨0, _⟩ => exact (tile_rhs0 _ _).trans hk
    | ⟨1, _⟩ => exact tile_rhs1 _ _)
  rw [el, er]

theorem proj_lhs0 (i : S2048x64.Idx) (q : dot_S2048x64_S64x64_S2048x64_1_0_0_1_n_n.contr.Idx) : (dot_S2048x64_S64x64_S2048x64_1_0_0_1_n_n.lhsIdx i q 0).val = (i 0).val := by
  unfold DotDims.lhsIdx
  rw [dif_neg (show ¬(0 : Fin S2048x64.rank) ∈ dot_S2048x64_S64x64_S2048x64_1_0_0_1_n_n.lhsBatch by decide), dif_pos (show (0 : Fin S2048x64.rank) ∈ dot_S2048x64_S64x64_S2048x64_1_0_0_1_n_n.lhsNonContracting by decide)]
  rfl
theorem proj_lhs1 (i : S2048x64.Idx) (q : dot_S2048x64_S64x64_S2048x64_1_0_0_1_n_n.contr.Idx) : (dot_S2048x64_S64x64_S2048x64_1_0_0_1_n_n.lhsIdx i q 1).val = (q ⟨0, by decide⟩).val :=
  dot_S2048x64_S64x64_S2048x64_1_0_0_1_n_n.lhsIdx_val_of_single rfl i q
theorem proj_rhs0 (i : S2048x64.Idx) (q : dot_S2048x64_S64x64_S2048x64_1_0_0_1_n_n.contr.Idx) : (dot_S2048x64_S64x64_S2048x64_1_0_0_1_n_n.rhsIdx i q 0).val = (q ⟨0, by decide⟩).val :=
  dot_S2048x64_S64x64_S2048x64_1_0_0_1_n_n.rhsIdx_val_of_single rfl i q
theorem proj_rhs1 (i : S2048x64.Idx) (q : dot_S2048x64_S64x64_S2048x64_1_0_0_1_n_n.contr.Idx) : (dot_S2048x64_S64x64_S2048x64_1_0_0_1_n_n.rhsIdx i q 1).val = (i 1).val := by
  unfold DotDims.rhsIdx
  rw [dif_neg (show ¬(1 : Fin S64x64.rank) ∈ dot_S2048x64_S64x64_S2048x64_1_0_0_1_n_n.rhsBatch by decide), dif_pos (show (1 : Fin S64x64.rank) ∈ dot_S2048x64_S64x64_S2048x64_1_0_0_1_n_n.rhsNonContracting by decide)]
  rfl

/-- The product into a zero accumulator, read at `(p, q)`: the sum over the shared index of the products. -/
theorem proj_apply (l : FVec Ideal S2048x64 .bf16) (r : FVec Ideal S64x64 .bf16) (p : Fin 2048) (q : Fin 64) :
    matmul dot_S2048x64_S64x64_S2048x64_1_0_0_1_n_n none l r (constant (F := Ideal) S2048x64 .f32 0x00000000#32) (ix2 p q)
      = ∑ s : Fin 64, l (ix2 p s) * r (ix2 s q) := by
  simp only [matmul]
  rw [Ideal.matmul_constant_zero_apply, ← Equiv.sum_comp (contrEquiv1 dot_S2048x64_S64x64_S2048x64_1_0_0_1_n_n 64 rfl rfl).symm]
  refine Finset.sum_congr rfl fun k _ => ?_
  have hk := contrEquiv1_symm_val dot_S2048x64_S64x64_S2048x64_1_0_0_1_n_n 64 rfl rfl k
  have el : dot_S2048x64_S64x64_S2048x64_1_0_0_1_n_n.lhsIdx (ix2 p q) ((contrEquiv1 dot_S2048x64_S64x64_S2048x64_1_0_0_1_n_n 64 rfl rfl).symm k) = ix2 p k := funext fun a => Fin.ext (by
    match a with
    | ⟨0, _⟩ => exact proj_lhs0 _ _
    | ⟨1, _⟩ => exact (proj_lhs1 _ _).trans hk)
  have er : dot_S2048x64_S64x64_S2048x64_1_0_0_1_n_n.rhsIdx (ix2 p q) ((contrEquiv1 dot_S2048x64_S64x64_S2048x64_1_0_0_1_n_n 64 rfl rfl).symm k) = ix2 k q := funext fun a => Fin.ext (by
    match a with
    | ⟨0, _⟩ => exact (proj_rhs0 _ _).trans hk
    | ⟨1, _⟩ => exact proj_rhs1 _ _)
  rw [el, er]

/-! ## The stores' values -/

/-- The reset block is zero. -/
theorem zero_apply (y : S2048x64.Idx) : k0_pay1 (F := Ideal) y = 0 := by
  unfold k0_pay1
  rw [shapeCast_self]
  exact Ideal.ofBits_zero_f32

/-- One step: the accumulator plus the tile's product with the feature rows. -/
theorem step_apply (x0 : Vec Ideal S2048x2048 .bf16) (X acc : Vec Ideal S2048x64 .f32) (p : Fin 2048) (q : Fin 64) :
    k0_pay3 (F := Ideal) x0 X acc (ix2 p q) = acc (ix2 p q) + ∑ s : Fin 2048, x0 (ix2 p s) * X (ix2 s q) := by
  unfold k0_pay3 k0_pay2
  simp only [shapeCast_self]
  rw [addf_apply, tile_apply]
  rfl

/-- The diagonal tile's extra term: the feature rows themselves. -/
theorem diag_apply (X P : Vec Ideal S2048x64 .f32) (y : S2048x64.Idx) : k0_pay4 (F := Ideal) X P y = P y + X y := by
  unfold k0_pay4 k0_pay2
  simp only [shapeCast_self]
  rfl

/-- The epilogue: scale by the row factor, contract with the transposed weights, add the bias. -/
theorem epilogue_apply (acc : Vec Ideal S2048x64 .f32) (x2 : Vec Ideal S2048x1 .f32) (x3 : Vec Ideal S64x64 .f32)
    (x4 : Vec Ideal S1x64 .f32) (p : Fin 2048) (o : Fin 64) :
    k0_pay5 (F := Ideal) acc x2 x3 x4 (ix2 p o)
      = (∑ c : Fin 64, (acc (ix2 p c) * x2 (ix2 p 0)) * x3 (ix2 o c)) + x4 (ix2 0 o) := by
  unfold k0_pay5
  simp only [shapeCast_self]
  rw [addf_apply, proj_apply]
  have hb : broadcastTo S2048x64 x4 broadcasts_S1x64_S2048x64 (ix2 p o) = x4 (ix2 0 o) :=
    broadcastTo_apply x4 broadcasts_S1x64_S2048x64 (ix2 p o) (ix2 0 o) (fun a => match a with
      | ⟨0, _⟩ => by show 0 = if (1 : Nat) = 1 then 0 else p.val; rw [if_pos rfl]
      | ⟨1, _⟩ => by show o.val = if (64 : Nat) = 1 then 0 else o.val; rw [if_neg (by decide)])
  rw [hb]
  refine congrArg (· + x4 (ix2 0 o)) (Finset.sum_congr rfl fun c _ => ?_)
  have h2 : broadcastTo S2048x64 x2 broadcasts_S2048x1_S2048x64 (ix2 p c) = x2 (ix2 p 0) :=
    broadcastTo_apply x2 broadcasts_S2048x1_S2048x64 (ix2 p c) (ix2 p 0) (fun a => match a with
      | ⟨0, _⟩ => by show p.val = if (2048 : Nat) = 1 then 0 else p.val; rw [if_neg (by decide)]
      | ⟨1, _⟩ => by show 0 = if (1 : Nat) = 1 then 0 else c.val; rw [if_pos rfl])
  have h3 : transpose S64x64 [1, 0] x3 transposes_S64x64_p1_0_S64x64 (ix2 c o) = x3 (ix2 o c) :=
    transpose_apply [1, 0] x3 transposes_S64x64_p1_0_S64x64 (ix2 c o) (ix2 o c) (fun b => match b with
      | ⟨0, _⟩ => rfl
      | ⟨1, _⟩ => rfl)
  show (acc (ix2 p c) * broadcastTo S2048x64 x2 broadcasts_S2048x1_S2048x64 (ix2 p c))
      * transpose S64x64 [1, 0] x3 transposes_S64x64_p1_0_S64x64 (ix2 c o) = _
  rw [h2, h3]

end Cert.KernelIdeal.Point

end
-- ==== Proof.KernelClosed.lean ====
/-
  The accumulator in closed form.

  By induction on the grid point: after step `k` of row block `i` the accumulator holds at `(p, q)` the
  contraction of adjacency row `2048·i + p` with column `q` of the scaled features over the column blocks `0 … k`,
  plus, once the diagonal tile has been passed (`i ≤ k`), the entry `XS[2048·i + p, q]`.  After the last step the
  four blocks make up the whole row.
-/
import proofs.«106884_j37254546325944_2_alg».proof.Proof.KernelBlocks
import proofs.«106884_j37254546325944_2_alg».proof.Proof.KernelAcc
import proofs.«106884_j37254546325944_2_alg».proof.Proof.KernelPoint

set_option maxRecDepth 16384

noncomputable section

open Idealize.ShloMosaic Idealize.ShloMosaic.TcCoe Idealize.SL.Sem Idealize.ShloMosaic.ValueIdx
open Idealize.ShloMosaic.Pipeline (Dat)
open scoped BigOperators

namespace Cert.KernelIdeal.Final

open Cert.KernelIdeal Cert.KernelIdeal.Gen Cert.KernelIdeal.Cases Cert.KernelIdeal.Acc Cert.KernelIdeal.Point Cert.GcnLaw

variable (m : (ℓ : Loc nD τ sig) → Buf (Elt Ideal) ℓ) (ρ : Dev nD → PrngReg)

/-! ## The accumulator in closed form -/

/-- The contraction of row `2048·i + p` of the adjacency matrix with column `q` of the scaled features, over the
    `k'`-th block of 2048 columns. -/
def blockDot (c : Dev nD) (i k' : ℕ) (p : Fin 2048) (q : Fin 64) : EReal :=
  ∑ s : Fin 2048, A m c (ix2 (rowOf i p) (rowOf k' s)) * XS m c (ix2 (rowOf k' s) q)

/-- The accumulator of row block `i` after step `k`. -/
def partialAcc (c : Dev nD) (i k : ℕ) (p : Fin 2048) (q : Fin 64) : EReal :=
  (∑ k' ∈ Finset.range (k + 1), blockDot m c i k' p q) + (if i ≤ k then XS m c (ix2 (rowOf i p) q) else 0)

/-- One step's value at an index, over what the accumulator held. -/
theorem step_read (c : Dev nD) (t : Fin cfg0.N) (i k : ℕ) (hi : t.val / 4 = i) (hk : t.val % 4 = k)
    (acc : Vec Ideal S2048x64 .f32) (p : Fin 2048) (q : Fin 64) :
    k0_pay3 (F := Ideal) (iblk m c 0 t) (xrows (grid0.coords t) (iblk m c 1 t)) acc (ix2 p q)
      = acc (ix2 p q) + blockDot m c i k p q := by
  rw [step_apply]
  unfold blockDot
  refine congrArg (acc (ix2 p q) + ·) (Finset.sum_congr rfl fun s _ => ?_)
  rw [tile_read m c t i k hi hk, rows_read m c t k hk]

theorem accAt_zero (c : Dev nD) (h : 0 < cfg0.N) : accAt m c 0 h = step m c ⟨0, h⟩ (k0_pay1 (F := Ideal)) := rfl

/-- The accumulator after point `n`, at `(p, q)`. -/
theorem acc_read (c : Dev nD) : ∀ (n : ℕ) (h : n < cfg0.N) (p : Fin 2048) (q : Fin 64),
    accAt m c n h (ix2 p q) = partialAcc m c (n / 4) (n % 4) p q
  | 0, h, p, q => by
    rw [accAt_zero]
    unfold step
    rw [if_pos (Nat.zero_mod 5), diag_apply, step_read m c ⟨0, h⟩ 0 0 (Nat.zero_div 4) (Nat.zero_mod 4), Point.zero_apply, rows_read m c ⟨0, h⟩ 0 (Nat.zero_mod 4)]
    show _ = partialAcc m c 0 0 p q
    unfold partialAcc
    simp only [Finset.sum_range_succ, Finset.sum_range_zero, zero_add, le_refl, if_true]
  | n + 1, h, p, q => by
    have hN : n + 1 < 16 := lt_of_lt_of_eq h (show cfg0.N = 16 from N_0)
    have ih := acc_read c n (Nat.lt_of_succ_lt h) p q
    rw [accAt_succ]
    unfold step
    by_cases h0 : (n + 1) % 4 = 0
    · -- a first step (never on the diagonal after the first row block)
      have h1 : ¬(n + 1) % 5 = 0 := by omega
      rw [if_neg h1, if_pos h0, step_read m c ⟨n + 1, h⟩ ((n + 1) / 4) 0 rfl h0, Point.zero_apply, h0]
      unfold partialAcc
      have hq : ¬(n + 1) / 4 ≤ 0 := by omega
      simp only [Finset.sum_range_succ, Finset.sum_range_zero, zero_add]
      rw [if_neg hq, add_zero]
    · have e1 : (n + 1) / 4 = n / 4 := by omega
      have e2 : (n + 1) % 4 = n % 4 + 1 := by omega
      rw [if_neg h0, e1, e2]
      by_cases h1 : (n + 1) % 5 = 0
      · -- the diagonal tile: i = k
        have hd : n / 4 = n % 4 + 1 := by omega
        rw [if_pos h1, diag_apply, step_read m c ⟨n + 1, h⟩ (n / 4) (n % 4 + 1) e1 e2, ih,
          rows_read m c ⟨n + 1, h⟩ (n % 4 + 1) e2]
        unfold partialAcc
        have hn1 : ¬n / 4 ≤ n % 4 := by omega
        have hn2 : n / 4 ≤ n % 4 + 1 := by omega
        rw [Finset.sum_range_succ _ (n % 4 + 1), if_neg hn1, if_pos hn2, add_zero, hd]
      · rw [if_neg h1, step_read m c ⟨n + 1, h⟩ (n / 4) (n % 4 + 1) e1 e2, ih]
        unfold partialAcc
        rw [Finset.sum_range_succ _ (n % 4 + 1), if_congr (show n / 4 ≤ n % 4 + 1 ↔ n / 4 ≤ n % 4 by omega) rfl rfl,
          add_right_comm]

/-- After the last step the four column blocks make up the whole row. -/
theorem acc_last (c : Dev nD) (i : ℕ) (hi : i < 4) (p : Fin 2048) (q : Fin 64) :
    partialAcc m c i 3 p q
      = (∑ j : Fin 8192, A m c (ix2 (rowOf i p) j) * XS m c (ix2 j q)) + XS m c (ix2 (rowOf i p) q) := by
  unfold partialAcc blockDot
  have h3 : i ≤ 3 := by omega
  show (∑ k' ∈ Finset.range 4, _) + _ = _
  rw [if_pos h3, sum_blocks (fun j => A m c (ix2 (rowOf i p) j) * XS m c (ix2 j q)), Finset.sum_range]
  refine congrArg (fun z => z + XS m c (ix2 (rowOf i p) q)) ?_
  refine Finset.sum_congr rfl fun k _ => ?_
  refine Finset.sum_congr rfl fun s _ => ?_
  rw [rowOf_eq_blockRow]

end Cert.KernelIdeal.Final

end
-- ==== Proof.KernelFinal.lean ====
/-
  From the last steps' blocks to the whole result array.

  At a last step (`t ≡ 3` mod 4) the body writes the epilogue of the finished accumulator, which is block `t / 4` of
  `regionOut`: `∑ c, ((∑ j, A[r, j]·XS[j, c]) + XS[r, c])·DR[r, 0]·W[o, c] + B2[0, o]`.  Those blocks tile the result
  array (row `r` is covered by point `4·(r / 2048) + 3`), so the array ends as that function of the region's arrays.
-/
import proofs.«106884_j37254546325944_2_alg».proof.Proof.Gen.KernelIdeal.Value
import proofs.«106884_j37254546325944_2_alg».proof.Proof.KernelClosed

set_option maxRecDepth 16384

noncomputable section

open Idealize.ShloMosaic Idealize.ShloMosaic.TcCoe Idealize.SL.Sem Idealize.ShloMosaic.ValueIdx
open Idealize.ShloMosaic.Pipeline (Dat)
open scoped BigOperators

namespace Cert.KernelIdeal.Final

open Cert.KernelIdeal Cert.KernelIdeal.Gen Cert.KernelIdeal.Cases Cert.KernelIdeal.Acc Cert.KernelIdeal.Point Cert.GcnLaw

variable (m : (ℓ : Loc nD τ sig) → Buf (Elt Ideal) ℓ) (ρ : Dev nD → PrngReg)

/-! ## The result -/

/-- The result at row `r`, channel `o`, from the region's arrays. -/
def regionOut (A' : S8192x8192.Idx → EReal) (XS' : S8192x64.Idx → EReal) (DR' : S8192x1.Idx → EReal)
    (W' : S64x64.Idx → EReal) (B2' : S1x64.Idx → EReal) (r : Fin 8192) (o : Fin 64) : EReal :=
  (∑ c : Fin 64, (((∑ j : Fin 8192, A' (ix2 r j) * XS' (ix2 j c)) + XS' (ix2 r c)) * DR' (ix2 r 0)) * W' (ix2 o c))
    + B2' (ix2 0 o)

/-- The whole result array. -/
def result (c : Dev nD) : S8192x64.Idx → EReal := fun y =>
  regionOut (A m c) (XS m c) (DR m c) (W m c) (B2 m c) ⟨(y 0).val, idx2_lt0 y⟩ ⟨(y 1).val, idx2_lt1 y⟩

/-- What a last step writes back is its block of `result`. -/
theorem flushed_eq (c : Dev nD) (t : Fin cfg0.N) (hf : (cfg0.win 5).flush t = true) :
    (dats m 0 c).flushed 5 t = ((cfg0.win 5).blk t).view.read (Elt Ideal) (result m c) := by
  have h3 : t.val % 4 = 3 := (flush0_5 t).mp hf
  have hN : t.val < 16 := lt_of_lt_of_eq t.isLt (show cfg0.N = 16 from N_0)
  obtain ⟨-, -, -, -, -, -, -, -, -, -, e10, e11, -⟩ := idx_facts t
  rw [Cert.KernelIdeal.Value.flushed5]
  funext j
  obtain ⟨p, o, rfl⟩ : ∃ (p : Fin 2048) (o : Fin 64), j = ix2 p o := ⟨j 0, j 1, eq_ix2 j⟩
  show (outsAt0 m c t.val t.isLt).1 (ix2 p o) = result m c (((cfg0.win 5).blk t).view.emb (ix2 p o))
  rw [out_eq m c t h3, epilogue_apply]
  unfold result regionOut
  have er : (⟨((((cfg0.win 5).blk t).view.emb (ix2 p o)) 0).val, idx2_lt0 _⟩ : Fin 8192) = rowOf (t.val / 4) p := by
    apply Fin.ext
    show win0_5.index t (0 : Fin 2) * 2048 + 1 * p.val = (2048 * (t.val / 4) + p.val) % 8192
    have := p.isLt; omega
  have eo : (⟨((((cfg0.win 5).blk t).view.emb (ix2 p o)) 1).val, idx2_lt1 _⟩ : Fin 64) = o := by
    apply Fin.ext
    show win0_5.index t (1 : Fin 2) * 64 + 1 * o.val = o.val
    omega
  rw [er, eo, b_read, dcol_read m c t (t.val / 4) rfl]
  refine congrArg (· + _) (Finset.sum_congr rfl fun c' _ => ?_)
  rw [w_read, acc_read m c t.val t.isLt, h3, acc_last m c (t.val / 4) (by omega)]

/-- Membership in a last step's block, coordinate by coordinate. -/
theorem mem_blk (t : Fin cfg0.N) (i : S8192x64.Idx) :
    i ∈ ((cfg0.win 5).blk t).view.set ↔ ∀ a : Fin 2, win0_5.index t a * S2048x64.size a ≤ (i a).val ∧ (i a).val < win0_5.index t a * S2048x64.size a + S2048x64.size a := by
  show i ∈ ((View.whole main_v34).slice (win0_5.rect t)).set ↔ _
  rw [View.set_slice_whole, Rect.mem_set_unit]
  exact Iff.rfl

/-- Every row block has its last step. -/
theorem last_point : ∀ i : Fin 4, ∃ t : Fin cfg0.N, t.val = 4 * i.val + 3 :=
  fun i => ⟨⟨4 * i.val + 3, by rw [show cfg0.N = 16 from N_0]; have := i.isLt; omega⟩, rfl⟩

/-- The result array after the run. -/
theorem final (c : Dev nD) : (dats m 0 c).arrAt 5 cfg0.N = result m c :=
  (dats m 0 c).arrAt_eq_of_cover 5 (result m c) (flushed_eq m c) fun i => by
    have hi0 : (i 0).val < 8192 := (i 0).isLt
    have hi1 : (i 1).val < 64 := (i 1).isLt
    obtain ⟨t, ht⟩ := last_point ⟨(i 0).val / 2048, by omega⟩
    have ht' : t.val = 4 * ((i 0).val / 2048) + 3 := ht
    obtain ⟨-, -, -, -, -, -, -, -, -, -, e10, e11, -⟩ := idx_facts t
    refine ⟨t, (flush0_5 t).mpr (by omega), ?_⟩
    rw [mem_blk]
    intro a
    match a with
    | ⟨0, _⟩ =>
      show win0_5.index t (0 : Fin 2) * 2048 ≤ (i 0).val ∧ (i 0).val < win0_5.index t (0 : Fin 2) * 2048 + 2048
      omega
    | ⟨1, _⟩ =>
      show win0_5.index t (1 : Fin 2) * 64 ≤ (i 1).val ∧ (i 1).val < win0_5.index t (1 : Fin 2) * 64 + 64
      omega

/-- The run: the result array ends as `result`, the arguments as they were. -/
theorem run : θ_run defs (onTc (τ := τ) (main (F := Ideal))) ⟨m, fun _ => 0, ρ⟩ fun r => ∀ c : Dev nD,
      r.2.mem ((c : Thread nD τ).loc main_v34) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final m c), (h c).2⟩)
    (Cert.KernelIdeal.Value.run_blocks m ρ)

end Cert.KernelIdeal.Final

end
-- ==== Proof.KernelHost.lean ====
/-
  The arrays the kernel's region finds, as functions of the program's arguments.

  Before the region the program builds, on the host: the adjacency matrix (zeros overwritten by ones at the
  edge positions, in the 16-bit format), each row's degree (the row sum plus one), the inverse-square-root
  factors `where(deg > 0, deg ^ (-1/2), 0)`, the features scaled column-wise by those factors, the factors as a
  column, and the bias as a row.  The edge positions are the same index vectors the reference builds (negative
  indices wrapped, the two rows of the edge list joined pairwise), so they are stated by the reference's own term.
-/
import proofs.«106884_j37254546325944_2_alg».proof.Proof.Gen.KernelIdeal.Frame
import proofs.«106884_j37254546325944_2_alg».proof.Proof.RefReadP
import Idealize.ShloMosaic.Lib.Pipeline.Value
import Idealize.ShloMosaic.Lib.StableHlo.Run
import Idealize.ShloMosaic.Lib.Tactic

set_option maxRecDepth 16384

noncomputable section

open Idealize.ShloMosaic Idealize.ShloMosaic.TcCoe Idealize.SL.Sem Idealize.ShloMosaic.StableHlo

namespace Cert.KernelIdeal.Host

open Cert.KernelIdeal Cert.KernelIdeal.Gen

variable {F : FTy → Type} [FloatOps F]

/-- The scatter's index vectors: one pair (row, column) per edge, negative entries wrapped by 8192. -/
abbrev edgeIdx (e : S2x262144.Idx → BitVec 32) : IVec S262144x2 32 :=
  Cert.ReferenceIdeal.ReadP.val_main_v17 (F := F) e

/-- The adjacency matrix: zeros, overwritten by ones at the edge positions. -/
def adj (e : S2x262144.Idx → BitVec 32) : FVec F S8192x8192 .bf16 :=
  Host.scatter scatter_S8192x8192_S262144x2_S262144_n_01_01_1 (fun _ b => b)
    (broadcastInDim S8192x8192 ![] bcast_S_S8192x8192 (constant S_ .bf16 0x0000#16)) (edgeIdx (F := F) e)
    (broadcastInDim S262144 ![] bcast_S_S262144 (constant S_ .bf16 0x3F80#16))

/-- A row's degree: its sum, plus one for the self loop. -/
def deg (A : FVec F S8192x8192 .bf16) : FVec F S8192 .f32 :=
  addf (Host.reduceAdd (extf .f32 A bitsLt_bf16_f32) (constant S_ .f32 0x00000000#32) reducesTo_S8192x8192_S8192_d1 h_S_)
    (broadcastInDim S8192 ![] bcast_S_S8192 (constant S_ .f32 0x3F800000#32))

/-- `where(g > 0, g ^ (-1/2), 0)`, entry by entry. -/
def dinvOf (g : FVec F S8192 .f32) : FVec F S8192 .f32 :=
  select (cmpf .ogt g (broadcastInDim S8192 ![] bcast_S_S8192 (constant S_ .f32 0x00000000#32)))
    (Host.powf g (broadcastInDim S8192 ![] bcast_S_S8192 (constant S_ .f32 0xBF000000#32)))
    (broadcastInDim S8192 ![] bcast_S_S8192 (id (constant S_ .f32 0x00000000#32)))

/-- The degree factors of the edge list `e`. -/
def dinv (e : S2x262144.Idx → BitVec 32) : FVec F S8192 .f32 := dinvOf (deg (adj (F := F) e))

variable (m : (ℓ : Loc nD τ sig) → Buf (Elt F) ℓ)

set_option maxHeartbeats 4000000 in
/-- The region's first operand is the adjacency matrix of the edge list. -/
theorem entry_adj (c : Dev nD) :
    (V m c main_v19 : S8192x8192.Idx → F .bf16) = adj (F := F) (m ((c : Thread nD τ).loc main_arg1)) := by
  dsimp only [V]
  simp only [hostOps0, hostOps0_1, hostOps0_2, List.flatten_cons, List.flatten_nil, List.append_nil, List.cons_append, List.nil_append]
  after_results
  rfl

set_option maxHeartbeats 4000000 in
/-- The region's second operand: the features, each row scaled by its degree factor. -/
theorem entry_xscaled (c : Dev nD) :
    (V m c main_v32 : S8192x64.Idx → F .f32)
      = mulf (m ((c : Thread nD τ).loc main_arg0))
          (broadcastInDim S8192x64 ![0, 1] bcast_S8192x1_S8192x64_0_1
            (broadcastInDim S8192x1 ![0] bcast_S8192_S8192x1_0 (dinv (F := F) (m ((c : Thread nD τ).loc main_arg1))))) := by
  dsimp only [V]
  simp only [hostOps0, hostOps0_1, hostOps0_2, List.flatten_cons, List.flatten_nil, List.append_nil, List.cons_append, List.nil_append]
  after_results
  rfl

set_option maxHeartbeats 4000000 in
/-- The region's third operand: the degree factors as a column. -/
theorem entry_dcol (c : Dev nD) :
    (V m c main_v29 : S8192x1.Idx → F .f32)
      = shapeCast S8192x1 (dinv (F := F) (m ((c : Thread nD τ).loc main_arg1))) shapeCasts_S8192_S8192x1 := by
  dsimp only [V]
  simp only [hostOps0, hostOps0_1, hostOps0_2, List.flatten_cons, List.flatten_nil, List.append_nil, List.cons_append, List.nil_append]
  after_results
  rfl

set_option maxHeartbeats 4000000 in
/-- The region's fifth operand: the bias as a row. -/
theorem entry_brow (c : Dev nD) :
    (V m c main_v33 : S1x64.Idx → F .f32) = shapeCast S1x64 (m ((c : Thread nD τ).loc main_arg3)) shapeCasts_S64_S1x64 := by
  dsimp only [V]
  simp only [hostOps0, hostOps0_1, hostOps0_2, List.flatten_cons, List.flatten_nil, List.append_nil, List.cons_append, List.nil_append]
  after_results
  rfl

end Cert.KernelIdeal.Host

end
-- ==== Proof.HostFacts.lean ====
/-
  Facts about the host-side values both programs compute before the contraction, read on the
  extended reals.

  * The float patterns that occur: `0` and `1` (in both the 16-bit and the 32-bit format) and the
    exponent `-1/2`, which is the cast of a real.
  * A scatter whose body returns the update ("set") only ever leaves, at each position, either the
    operand's element or one of the updates: any predicate true of all of those is true of the result.
    For the adjacency matrix (zeros, overwritten by ones) every entry is therefore `0` or `1`.
  * `where(g > 0, g ^ (-1/2), 0)` of a finite `g` is finite: a real power of a real is a real.
-/
import Idealize.ShloMosaic.PureOps.Ideal.Laws

open Idealize.ShloMosaic

namespace Cert.GcnLaw

theorem one_f32 : Ideal.ofBits .f32 0x3F800000#32 = 1 := by
  simp [Ideal.ofBits, Ideal.ieee]
  rw [← EReal.coe_mul, ← EReal.coe_one]
  congr 1
  norm_num

theorem one_bf16 : Ideal.ofBits .bf16 0x3F80#16 = 1 := by
  simp [Ideal.ofBits, Ideal.ieee]
  rw [← EReal.coe_mul, ← EReal.coe_one]
  congr 1
  norm_num

theorem zero_bf16 : Ideal.ofBits .bf16 0x0000#16 = 0 := by simp [Ideal.ofBits, Ideal.ieee]
theorem zero_f32 : Ideal.ofBits .f32 0x00000000#32 = 0 := Ideal.ofBits_zero_f32

/-- The exponent `-0.5` is (the cast of) a real number. -/
theorem exponent_real : ∃ y : ℝ, Ideal.ofBits .f32 0xBF000000#32 = (y : EReal) := by
  have h1 : Ideal.ofBits .f32 0xBF000000#32 ≠ ⊤ := by
    simp [Ideal.ofBits, Ideal.ieee]
    rw [← EReal.coe_mul]
    exact EReal.coe_ne_bot _
  have h2 : Ideal.ofBits .f32 0xBF000000#32 ≠ ⊥ := by
    simp [Ideal.ofBits, Ideal.ieee]
    rw [← EReal.coe_mul]
    exact EReal.coe_ne_top _
  exact ⟨_, (EReal.coe_toReal h1 h2).symm⟩

/-- One step of a "set" scatter preserves any predicate the operand and the updates satisfy, so the whole
    fold does. -/
theorem scatter_set_pred {α : Type} {s si u : Shape} {w : Nat} (d : ScatterDims s si u)
    (x : s.Idx → α) (idx : IVec si w) (upd : u.Idx → α) (P : α → Prop)
    (hx : ∀ i, P (x i)) (hu : ∀ j, P (upd j)) (i : s.Idx) :
    P (Host.scatter d (fun _ b => b) x idx upd i) := by
  unfold Host.scatter
  generalize List.finRange u.numel = l
  induction l generalizing x with
  | nil => exact hx i
  | cons n l ih =>
    rw [List.foldl_cons]
    apply ih
    intro i'
    cases h : d.resultIdx? (u.rowMajor.symm n) idx with
    | none => exact hx i'
    | some i0 =>
      dsimp only
      split_ifs
      · exact hu _
      · exact hx i'

end Cert.GcnLaw
-- ==== Proof.GcnSpec.lean ====
/-
  The two results as formulas over plain indices, and their equality.

  `a r j` is the adjacency entry (row `r`, column `j`), `d r` the inverse square root of row `r`'s degree,
  `x j c` the features, `w o c` the weights and `b o` the bias.

  * `refOut`: normalise the adjacency matrix with self loops, `d r · (a r j + δ r j) · d j`, contract it with
    the features, then with the transposed weights, and add the bias.
  * `kerOut`: contract the raw adjacency row with the column-scaled features `x j c · d j`, add the diagonal
    term `x r c · d r`, scale by `d r`, then contract with the transposed weights and add the bias.

  They agree as soon as the adjacency entries, the degree factors and the features are finite (the weights
  and the bias may be anything): the inner contraction is `Cert.GcnLaw.ereal_law`, the rest is the same on both
  sides.
-/
import proofs.«106884_j37254546325944_2_alg».proof.Proof.RealLaw

open scoped BigOperators

noncomputable section

namespace Cert.GcnLaw

variable (a : Fin 8192 → Fin 8192 → EReal) (d : Fin 8192 → EReal) (x : Fin 8192 → Fin 64 → EReal)
  (w : Fin 64 → Fin 64 → EReal) (b : Fin 64 → EReal)

/-- The reference's result at row `r`, output channel `o`. -/
def refOut (r : Fin 8192) (o : Fin 64) : EReal :=
  (∑ c : Fin 64, (∑ j : Fin 8192, ((d r * (a r j + if r = j then 1 else 0)) * d j) * x j c) * w o c) + b o

/-- The kernel's result at row `r`, output channel `o`. -/
def kerOut (r : Fin 8192) (o : Fin 64) : EReal :=
  (∑ c : Fin 64, (((∑ j : Fin 8192, a r j * (x j c * d j)) + x r c * d r) * d r) * w o c) + b o

/-- On finite adjacency entries, degree factors and features the two results are equal. -/
theorem kerOut_eq_refOut (ha : ∀ r j, ∃ y : ℝ, a r j = (y : EReal)) (hd : ∀ r, ∃ y : ℝ, d r = (y : EReal))
    (hx : ∀ j c, ∃ y : ℝ, x j c = (y : EReal)) (r : Fin 8192) (o : Fin 64) :
    kerOut a d x w b r o = refOut a d x w b r o := by
  choose a' ha' using ha
  choose d' hd' using hd
  choose x' hx' using hx
  unfold kerOut refOut
  refine congrArg (· + b o) (Finset.sum_congr rfl fun c _ => congrArg (· * w o c) ?_)
  simp only [ha', hd', hx']
  exact ereal_law (a' r) d' (fun j => x' j c) r

end Cert.GcnLaw

end
-- ==== Proof.RefPoint.lean ====
/-
  The reference's result, read at one index, is `Cert.GcnLaw.refOut`.

  Entry `(r, j)` of the normalised matrix is `d r · (a r j + δ r j) · d j`: the degree factors broadcast along
  rows and along columns, and the identity matrix a comparison of the two coordinate arrays turned into
  `0` / `1`.  The two contractions are the plain sums over the shared index, and the bias is broadcast along
  rows.  Here `a` is the reference's scatter result and `d` its `where(deg > 0, deg ^ (-1/2), 0)`.
-/
import proofs.«106884_j37254546325944_2_alg».proof.Proof.RefReadP
import proofs.«106884_j37254546325944_2_alg».proof.Proof.GcnSpec
import Idealize.ShloMosaic.Lib.ValueIdx

noncomputable section

open Idealize.ShloMosaic Idealize.ShloMosaic.ValueIdx
open scoped BigOperators

namespace Cert.ReferenceIdeal.Point

open Cert.ReferenceIdeal Cert.ReferenceIdeal.ReadP

/-- The reference's adjacency entry (row `r`, column `j`). -/
def aR (x1 : (⟨S2x262144, .i32⟩ : BufTy).Contents (Elt Ideal)) (r j : Fin 8192) : EReal :=
  val_main_v19 (F := Ideal) x1 (ix2 r j)

/-- The reference's degree factor of row `r`. -/
def dR (x1 : (⟨S2x262144, .i32⟩ : BufTy).Contents (Elt Ideal)) (r : Fin 8192) : EReal :=
  val_main_v32 (F := Ideal) x1 (ix1 r)

/-- The identity matrix: the row coordinate compared with the column coordinate, as `1` or `0`. -/
theorem eye_apply (r j : Fin 8192) :
    val_main_v25 (F := Ideal) (ix2 r j) = if r = j then 1 else 0 := by
  rw [val_main_v25_apply, val_main_v24_apply, val_main_v23_apply, val_main_v20_apply, val_main_v22_apply,
    val_main_v21_apply, val_main_c_4_apply]
  show (((IntOp.cmpi .eq (IntOp.addi (BitVec.ofNat 32 r.val) 0#32) (BitVec.ofNat 32 j.val)).toNat : ℝ) : EReal) = _
  unfold IntOp.cmpi IntOp.addi
  have hr := r.isLt
  have hj := j.isLt
  by_cases h : r = j
  · subst h; simp
  · have hne : ¬(BitVec.ofNat 32 r.val = BitVec.ofNat 32 j.val) := by
      intro hh
      have h3 := congrArg BitVec.toNat hh
      simp only [BitVec.toNat_ofNat] at h3
      rw [Nat.mod_eq_of_lt (by omega), Nat.mod_eq_of_lt (by omega)] at h3
      exact h (Fin.ext h3)
    simp [hne, h]

/-- One entry of the normalised matrix. -/
theorem norm_apply (x1 : (⟨S2x262144, .i32⟩ : BufTy).Contents (Elt Ideal)) (r j : Fin 8192) :
    val_main_v38 (F := Ideal) x1 (ix2 r j) = (dR x1 r * (aR x1 r j + if r = j then 1 else 0)) * dR x1 j := by
  rw [val_main_v38_apply, val_main_v35_apply, val_main_v34_apply, val_main_v33_apply, val_main_v37_apply,
    val_main_v36_apply, val_main_v26_apply, eye_apply]
  have e1 : idx_main_v33 (idx_main_v34 (ix2 r j)) = ix1 r := funext fun a => Fin.ext (by match a with | ⟨0, _⟩ => rfl)
  have e2 : idx_main_v36 (idx_main_v37 (ix2 r j)) = ix1 j := funext fun a => Fin.ext (by match a with | ⟨0, _⟩ => rfl)
  rw [e1, e2]
  rfl

/-- The first contraction: the normalised row against one feature column. -/
theorem contract_apply (x0 : (⟨S8192x64, .f32⟩ : BufTy).Contents (Elt Ideal))
    (x1 : (⟨S2x262144, .i32⟩ : BufTy).Contents (Elt Ideal)) (r : Fin 8192) (c : Fin 64) :
    val_main_v39 (F := Ideal) x0 x1 (ix2 r c)
      = ∑ j : Fin 8192, ((dR x1 r * (aR x1 r j + if r = j then 1 else 0)) * dR x1 j) * x0 (ix2 j c) := by
  rw [val_main_v39_apply]
  refine Finset.sum_congr rfl fun j _ => ?_
  have el : lidx_main_v39 (ix2 r c) j = ix2 r j := funext fun a => Fin.ext (by match a with | ⟨0, _⟩ => rfl | ⟨1, _⟩ => rfl)
  have er : ridx_main_v39 (ix2 r c) j = ix2 j c := funext fun a => Fin.ext (by match a with | ⟨0, _⟩ => rfl | ⟨1, _⟩ => rfl)
  rw [el, er, norm_apply]

/-- The reference's result at `(r, o)` is `refOut` of its adjacency entries, degree factors and the arguments. -/
theorem result_apply (x0 : (⟨S8192x64, .f32⟩ : BufTy).Contents (Elt Ideal))
    (x1 : (⟨S2x262144, .i32⟩ : BufTy).Contents (Elt Ideal)) (x2 : (⟨S64x64, .f32⟩ : BufTy).Contents (Elt Ideal))
    (x3 : (⟨S64, .f32⟩ : BufTy).Contents (Elt Ideal)) (r : Fin 8192) (o : Fin 64) :
    val_main_v44 (F := Ideal) x0 x1 x2 x3 (ix2 r o)
      = Cert.GcnLaw.refOut (aR x1) (dR x1) (fun j c => x0 (ix2 j c)) (fun o c => x2 (ix2 o c)) (fun o => x3 (ix1 o)) r o := by
  rw [val_main_v44_apply, val_main_v41_apply, val_main_v43_apply, val_main_v42_apply, Ideal.addf_def]
  unfold Cert.GcnLaw.refOut
  have e3 : idx_main_v42 (idx_main_v43 (ix2 r o)) = ix1 o := funext fun a => Fin.ext (by match a with | ⟨0, _⟩ => rfl)
  rw [e3]
  refine congrArg (· + x3 (ix1 o)) (Finset.sum_congr rfl fun k _ => ?_)
  have el : lidx_main_v41 (ix2 r o) k = ix2 r k := funext fun a => Fin.ext (by match a with | ⟨0, _⟩ => rfl | ⟨1, _⟩ => rfl)
  have er : idx_main_v40 (ridx_main_v41 (ix2 r o) k) = ix2 o k := funext fun a => Fin.ext (by match a with | ⟨0, _⟩ => rfl | ⟨1, _⟩ => rfl)
  rw [el, val_main_v40_apply, er, contract_apply]

end Cert.ReferenceIdeal.Point

end
-- ==== Proof.HostBridge.lean ====
/-
  The host-side values of the two programs, compared and bounded.

  * The kernel's adjacency matrix (built in the 16-bit format) and the reference's (32-bit) are one array of
    extended reals: the same edge positions, zeros overwritten by ones.  Every entry is `0` or `1`.
  * A row's degree is, for the kernel, its sum plus one, and for the reference the sum of the row with the
    identity's row added entry by entry: equal, since `∑ j, δ r j = 1` (no finiteness is needed here).
  * Hence the degree factors `where(deg > 0, deg ^ (-1/2), 0)` agree, and each is finite: the degree is a finite
    sum of zeros and ones plus one, and a real power of a real is real.
  * The region's scaled features, factor column and bias row, read at an index.
-/
import proofs.«106884_j37254546325944_2_alg».proof.Proof.KernelHost
import proofs.«106884_j37254546325944_2_alg».proof.Proof.HostFacts
import proofs.«106884_j37254546325944_2_alg».proof.Proof.RefPoint
import Idealize.ShloMosaic.Lib.ValueIdx
import Idealize.ShloMosaic.PureOps.Ideal.Laws

set_option maxRecDepth 16384

noncomputable section

open Idealize.ShloMosaic Idealize.ShloMosaic.ValueIdx
open scoped BigOperators

namespace Cert.KernelIdeal.HostBridge

open Cert.KernelIdeal Cert.KernelIdeal.Gen Cert.KernelIdeal.Host Cert.GcnLaw

/-! ## The adjacency matrix -/

theorem zeros16_apply (i : S8192x8192.Idx) :
    broadcastInDim S8192x8192 ![] bcast_S_S8192x8192 (constant (F := Ideal) S_ .bf16 0x0000#16) i = 0 := by
  rw [broadcastInDim_apply _ bcast_S_S8192x8192 _ i (fun a => a.elim0) (fun a => a.elim0)]
  exact zero_bf16

theorem ones16_apply (j : S262144.Idx) :
    broadcastInDim S262144 ![] bcast_S_S262144 (constant (F := Ideal) S_ .bf16 0x3F80#16) j = 1 := by
  rw [broadcastInDim_apply _ bcast_S_S262144 _ j (fun a => a.elim0) (fun a => a.elim0)]
  exact one_bf16

/-- Every adjacency entry is `0` or `1`. -/
theorem adj_mem (e : S2x262144.Idx → BitVec 32) (i : S8192x8192.Idx) :
    adj (F := Ideal) e i = 0 ∨ adj (F := Ideal) e i = 1 := by
  unfold adj
  exact scatter_set_pred _ _ _ _ (fun x => x = 0 ∨ x = 1) (fun i => Or.inl (zeros16_apply i))
    (fun j => Or.inr (ones16_apply j)) i

/-- … so it is finite. -/
theorem adj_real (e : S2x262144.Idx → BitVec 32) (r j : Fin 8192) :
    ∃ y : ℝ, adj (F := Ideal) e (ix2 r j) = (y : EReal) := by
  rcases adj_mem e (ix2 r j) with h | h
  · exact ⟨0, by rw [h, EReal.coe_zero]⟩
  · exact ⟨1, by rw [h, EReal.coe_one]⟩

/-- The kernel's adjacency matrix is the reference's. -/
theorem adj_eq_ref (e : S2x262144.Idx → BitVec 32) :
    (adj (F := Ideal) e : S8192x8192.Idx → EReal) = Cert.ReferenceIdeal.ReadP.val_main_v19 (F := Ideal) e := by
  have hx : (broadcastInDim S8192x8192 ![] bcast_S_S8192x8192 (constant (F := Ideal) S_ .bf16 0x0000#16) : S8192x8192.Idx → EReal)
      = Cert.ReferenceIdeal.ReadP.val_main_v0 (F := Ideal) := by
    funext i
    rw [zeros16_apply, Cert.ReferenceIdeal.ReadP.val_main_v0_apply, Cert.ReferenceIdeal.ReadP.val_main_cst_apply]
    exact zero_f32.symm
  have hu : (broadcastInDim S262144 ![] bcast_S_S262144 (constant (F := Ideal) S_ .bf16 0x3F80#16) : S262144.Idx → EReal)
      = Cert.ReferenceIdeal.ReadP.val_main_v18 (F := Ideal) := by
    funext j
    rw [ones16_apply, Cert.ReferenceIdeal.ReadP.val_main_v18_apply, Cert.ReferenceIdeal.ReadP.val_main_cst_3_apply]
    exact one_f32.symm
  unfold adj Cert.ReferenceIdeal.ReadP.val_main_v19
  rw [hx, hu]
  rfl

/-! ## Degrees and degree factors -/

/-- The kernel's degree of row `r`: the row sum plus one. -/
theorem deg_apply (A' : FVec Ideal S8192x8192 .bf16) (r : Fin 8192) :
    deg (F := Ideal) A' (ix1 r) = (0 + ∑ j : Fin 8192, A' (ix2 r j)) + 1 := by
  unfold deg
  rw [addf_apply]
  simp only [Host.reduceAdd, Ideal.hostReduceAdd_def]
  rw [Ideal.hostReduceAdd_single reducesTo_S8192x8192_S8192_d1 (by decide)]
  have h1 : broadcastInDim S8192 ![] bcast_S_S8192 (constant (F := Ideal) S_ .f32 0x3F800000#32) (ix1 r) = 1 := by
    rw [broadcastInDim_apply _ bcast_S_S8192 _ (ix1 r) (fun a => a.elim0) (fun a => a.elim0)]
    exact one_f32
  rw [h1]
  refine congrArg (· + 1) ?_
  refine congrArg₂ (· + ·) zero_f32 (Finset.sum_congr rfl fun k _ => ?_)
  exact congrArg A' (funext fun a => Fin.ext (by match a with | ⟨0, _⟩ => rfl | ⟨1, _⟩ => rfl))

/-- The reference's degree of row `r`: the sum of the row with the identity's row added. -/
theorem deg_ref_apply (e : S2x262144.Idx → BitVec 32) (r : Fin 8192) :
    Cert.ReferenceIdeal.ReadP.val_main_v27 (F := Ideal) e (ix1 r)
      = 0 + ∑ j : Fin 8192, (Cert.ReferenceIdeal.ReadP.val_main_v19 (F := Ideal) e (ix2 r j) + if r = j then 1 else 0) := by
  rw [Cert.ReferenceIdeal.ReadP.val_main_v27_apply, Cert.ReferenceIdeal.ReadP.val_main_cst_5_apply]
  refine congrArg₂ (· + ·) zero_f32 (Finset.sum_congr rfl fun k _ => ?_)
  have ek : Cert.ReferenceIdeal.ReadP.idx_main_v27 (ix1 r) k = ix2 r k := funext fun a => Fin.ext (by match a with | ⟨0, _⟩ => rfl | ⟨1, _⟩ => rfl)
  rw [ek, Cert.ReferenceIdeal.ReadP.val_main_v26_apply, Cert.ReferenceIdeal.Point.eye_apply]
  rfl

/-- The two degrees agree. -/
theorem deg_eq_ref (e : S2x262144.Idx → BitVec 32) :
    (deg (F := Ideal) (adj (F := Ideal) e) : S8192.Idx → EReal) = Cert.ReferenceIdeal.ReadP.val_main_v27 (F := Ideal) e := by
  funext i
  obtain ⟨r, rfl⟩ : ∃ r : Fin 8192, i = ix1 r := ⟨i 0, eq_ix1 i⟩
  rw [deg_apply, deg_ref_apply, ← adj_eq_ref, Finset.sum_add_distrib, Finset.sum_ite_eq, if_pos (Finset.mem_univ r),
    add_assoc]

/-- So the degree factors agree. -/
theorem dinv_eq_ref (e : S2x262144.Idx → BitVec 32) :
    (dinv (F := Ideal) e : S8192.Idx → EReal) = Cert.ReferenceIdeal.ReadP.val_main_v32 (F := Ideal) e := by
  show dinvOf (deg (F := Ideal) (adj (F := Ideal) e)) = _
  rw [deg_eq_ref]
  rfl

/-- A degree factor is finite. -/
theorem dinv_real (e : S2x262144.Idx → BitVec 32) (r : Fin 8192) :
    ∃ y : ℝ, dinv (F := Ideal) e (ix1 r) = (y : EReal) := by
  choose a' ha' using fun j => adj_real e r j
  obtain ⟨y, hy⟩ := exponent_real
  have hg : deg (F := Ideal) (adj (F := Ideal) e) (ix1 r) = ((0 + ∑ j : Fin 8192, a' j + 1 : ℝ) : EReal) := by
    rw [deg_apply]
    simp only [ha', sum_coe_eq]
    rw [← EReal.coe_zero, ← EReal.coe_one, ← EReal.coe_add, ← EReal.coe_add]
  show ∃ y : ℝ, Scalar.select (FloatOps.cmpf .ogt (deg (F := Ideal) (adj (F := Ideal) e) (ix1 r)) _)
      (FloatOps.hostPowf (deg (F := Ideal) (adj (F := Ideal) e) (ix1 r))
        (broadcastInDim S8192 ![] bcast_S_S8192 (constant (F := Ideal) S_ .f32 0xBF000000#32) (ix1 r)))
      (broadcastInDim S8192 ![] bcast_S_S8192 (id (constant (F := Ideal) S_ .f32 0x00000000#32)) (ix1 r)) = (y : EReal)
  have hy' : broadcastInDim S8192 ![] bcast_S_S8192 (constant (F := Ideal) S_ .f32 0xBF000000#32) (ix1 r) = (y : EReal) := by
    rw [broadcastInDim_apply _ bcast_S_S8192 _ (ix1 r) (fun a => a.elim0) (fun a => a.elim0)]
    exact hy
  have hz : broadcastInDim S8192 ![] bcast_S_S8192 (id (constant (F := Ideal) S_ .f32 0x00000000#32)) (ix1 r) = ((0 : ℝ) : EReal) := by
    rw [broadcastInDim_apply _ bcast_S_S8192 _ (ix1 r) (fun a => a.elim0) (fun a => a.elim0), EReal.coe_zero]
    exact zero_f32
  rw [hg, hy', hz]
  unfold Scalar.select
  split_ifs
  · exact ⟨_, rfl⟩
  · exact ⟨_, rfl⟩

/-! ## The region's small arrays, read at an index -/

/-- The scaled features: entry `(j, c)` is `x (j, c)` times row `j`'s degree factor. -/
theorem xscaled_apply (x : S8192x64.Idx → EReal) (e : S2x262144.Idx → BitVec 32) (j : Fin 8192) (c : Fin 64) :
    mulf (F := Ideal) x (broadcastInDim S8192x64 ![0, 1] bcast_S8192x1_S8192x64_0_1
      (broadcastInDim S8192x1 ![0] bcast_S8192_S8192x1_0 (dinv (F := Ideal) e))) (ix2 j c)
      = x (ix2 j c) * dinv (F := Ideal) e (ix1 j) := by
  rw [mulf_apply]
  refine congrArg (x (ix2 j c) * ·) ?_
  rw [broadcastInDim_apply _ bcast_S8192x1_S8192x64_0_1 _ (ix2 j c) (ix2 j 0) (fun a => match a with
      | ⟨0, _⟩ => by show j.val = if (8192 : Nat) = 1 then 0 else j.val; rw [if_neg (by decide)]
      | ⟨1, _⟩ => by show 0 = if (1 : Nat) = 1 then 0 else c.val; rw [if_pos rfl]),
    broadcastInDim_apply _ bcast_S8192_S8192x1_0 _ (ix2 j 0) (ix1 j) (fun a => match a with
      | ⟨0, _⟩ => by show j.val = if (8192 : Nat) = 1 then 0 else j.val; rw [if_neg (by decide)])]

/-- The factor column: entry `(r, 0)` is row `r`'s degree factor. -/
theorem dcol_apply (d : S8192.Idx → EReal) (r : Fin 8192) :
    shapeCast S8192x1 d shapeCasts_S8192_S8192x1 (ix2 r 0) = d (ix1 r) := by
  refine shapeCast_apply d shapeCasts_S8192_S8192x1 (ix2 r 0) (ix1 r) ?_
  rw [Shape.rowMajor_val_one, Shape.rowMajor_val_two]
  show r.val = r.val * 1 + 0
  omega

/-- The bias row: entry `(0, o)` is bias entry `o`. -/
theorem brow_apply (b : S64.Idx → EReal) (o : Fin 64) :
    shapeCast S1x64 b shapeCasts_S64_S1x64 (ix2 0 o) = b (ix1 o) := by
  refine shapeCast_apply b shapeCasts_S64_S1x64 (ix2 0 o) (ix1 o) ?_
  rw [Shape.rowMajor_val_one, Shape.rowMajor_val_two]
  show o.val = 0 * 64 + o.val
  omega

end Cert.KernelIdeal.HostBridge

end
-- ==== Proof.Bridge.lean ====
/-
  The kernel's result array is the reference's result.

  The region's arrays are the host values of the arguments (the adjacency matrix `a`, the degree factors `d`, the
  features scaled by them, the factor column, the weights, the bias row), so the kernel's array is `kerOut a d x w b`;
  the reference's result is `refOut` of ITS adjacency matrix and degree factors, which are the same arrays; and on
  finite `a`, `d` and features the two formulas agree.
-/
import proofs.«106884_j37254546325944_2_alg».proof.Proof.KernelFinal
import proofs.«106884_j37254546325944_2_alg».proof.Proof.HostBridge

set_option maxRecDepth 16384

noncomputable section

open Idealize.ShloMosaic Idealize.ShloMosaic.TcCoe Idealize.SL.Sem Idealize.ShloMosaic.ValueIdx
open scoped BigOperators

namespace Cert.KernelIdeal.Bridge

open Cert.KernelIdeal Cert.KernelIdeal.Gen Cert.KernelIdeal.Host Cert.KernelIdeal.HostBridge Cert.KernelIdeal.Final Cert.GcnLaw

variable (m : (ℓ : Loc nD τ sig) → Buf (Elt Ideal) ℓ)

/-- The four arguments as the program is launched with them: features, edge list, weights, bias. -/
abbrev argX (c : Dev nD) : S8192x64.Idx → EReal := m ((c : Thread nD τ).loc main_arg0)
abbrev argE (c : Dev nD) : S2x262144.Idx → BitVec 32 := m ((c : Thread nD τ).loc main_arg1)
abbrev argW (c : Dev nD) : S64x64.Idx → EReal := m ((c : Thread nD τ).loc main_arg2)
abbrev argB (c : Dev nD) : S64.Idx → EReal := m ((c : Thread nD τ).loc main_arg3)

/-- The kernel's result at `(r, o)` is `kerOut` of the arguments' host values. -/
theorem result_apply (c : Dev nD) (r : Fin 8192) (o : Fin 64) :
    result m c (ix2 r o)
      = kerOut (fun r j => adj (F := Ideal) (argE m c) (ix2 r j)) (fun r => dinv (F := Ideal) (argE m c) (ix1 r))
          (fun j c' => argX m c (ix2 j c')) (fun o c' => argW m c (ix2 o c')) (fun o => argB m c (ix1 o)) r o := by
  show regionOut (A m c) (XS m c) (DR m c) (W m c) (B2 m c) r o = _
  unfold regionOut kerOut
  have hA : A m c = adj (F := Ideal) (argE m c) := entry_adj m c
  have hX : ∀ j c', XS m c (ix2 j c') = argX m c (ix2 j c') * dinv (F := Ideal) (argE m c) (ix1 j) := by
    intro j c'
    show V m c main_v32 (ix2 j c') = _
    rw [entry_xscaled m c]
    exact xscaled_apply _ _ j c'
  have hD : DR m c (ix2 r 0) = dinv (F := Ideal) (argE m c) (ix1 r) := by
    show V m c main_v29 (ix2 r 0) = _
    rw [entry_dcol m c]
    exact dcol_apply _ r
  have hW : W m c = argW m c := V_main_arg2 m c
  have hB : B2 m c (ix2 0 o) = argB m c (ix1 o) := by
    show V m c main_v33 (ix2 0 o) = _
    rw [entry_brow m c]
    exact brow_apply _ o
  rw [hA, hD, hW, hB]
  simp only [hX]

/-- On finite features, the kernel's result array is the reference's result term of the same arguments. -/
theorem result_eq_ref (c : Dev nD) (hx : ∀ i : S8192x64.Idx, ∃ y : ℝ, argX m c i = (y : EReal)) :
    (result m c : S8192x64.Idx → EReal)
      = Cert.ReferenceIdeal.ReadP.val_main_v44 (F := Ideal) (argX m c) (argE m c) (argW m c) (argB m c) := by
  funext y
  obtain ⟨r, o, rfl⟩ : ∃ (r : Fin 8192) (o : Fin 64), y = ix2 r o := ⟨y 0, y 1, eq_ix2 y⟩
  rw [result_apply, Cert.ReferenceIdeal.Point.result_apply,
    kerOut_eq_refOut _ _ _ _ _ (adj_real _) (dinv_real _) (fun j c' => hx (ix2 j c'))]
  have ha : (fun r j => adj (F := Ideal) (argE m c) (ix2 r j)) = Cert.ReferenceIdeal.Point.aR (argE m c) := by
    funext r j; unfold Cert.ReferenceIdeal.Point.aR; rw [← adj_eq_ref]
  have hd : (fun r => dinv (F := Ideal) (argE m c) (ix1 r)) = Cert.ReferenceIdeal.Point.dR (argE m c) := by
    funext r; unfold Cert.ReferenceIdeal.Point.dR; rw [← dinv_eq_ref]
  rw [ha, hd]

end Cert.KernelIdeal.Bridge

end
-- ==== Proof.PreFinite.lean ====
/-
  What the precondition gives: every feature entry is a real number.

  The precondition is the conjunction of three tests "all |entries| < +∞", for the features, the weights and
  the bias.  Its first conjunct, read back at one entry `v`, says `max v (-v) < ⊤`, which fails at both infinities:
  `v` is the cast of a real.  (Only the features' finiteness is used: the weights and the bias enter both
  results in the same way.)
-/
import proofs.«106884_j37254546325944_2_alg».proof.Pre_finite_inputs
import proofs.«106884_j37254546325944_2_alg».proof.Proof.Gen.Pre_finite_inputs
import Idealize.ShloMosaic.Lib.ReduceAll
import Idealize.ShloMosaic.Lib.ValueIdx
import Idealize.ShloMosaic.PureOps.Ideal.Laws

noncomputable section

open Idealize.ShloMosaic

namespace Cert.Proof.PreFinite

open Cert.Pre_finite_inputs

instance : Subsingleton S_.Idx := ⟨fun a b => funext fun d => d.elim0⟩

/-- An extended real whose absolute value is below `+∞` is a real. -/
theorem real_of_abs_lt (v : EReal) (h : Ideal.cmp .olt (max v (-v)) (Ideal.ofBits .f32 0x7F800000#32) = 1#1) :
    ∃ y : ℝ, v = (y : EReal) := by
  have htop : Ideal.ofBits .f32 0x7F800000#32 = ⊤ := by simp [Ideal.ofBits, Ideal.ieee]
  rw [htop] at h
  induction v using EReal.rec with
  | bot => simp [Ideal.cmp] at h
  | top => simp [Ideal.cmp] at h
  | coe r => exact ⟨r, rfl⟩

/-- Under the precondition every entry of the first argument is a real. -/
theorem features_real (x : FVec Ideal S8192x64 .f32) (e : IVec S2x262144 32) (w : FVec Ideal S64x64 .f32)
    (b : FVec Ideal S64 .f32) (h : fn (F := Ideal) x e w b = fun _ => 1#1) (i : S8192x64.Idx) :
    ∃ y : ℝ, x i = (y : EReal) := by
  have h0 := congrFun h ValueIdx.ix0
  dsimp only [fn] at h0
  obtain ⟨h8, -⟩ := IntOp.andi_eq_one.1 h0
  obtain ⟨h3, -⟩ := IntOp.andi_eq_one.1 h8
  have hi := Host.reduce_andi_all _ _ _ _ _ h3 i
  exact real_of_abs_lt (x i) hi

end Cert.Proof.PreFinite

end
-- ==== Proof.lean ====
/-
  The certificate of the fused graph-convolution kernel against its reference.

  Both programs first build, on the host, the dense adjacency matrix `a` of the edge list (zeros overwritten by
  ones), each row's degree `∑ j, a r j + 1` and the factors `d = where(deg > 0, deg ^ (-1/2), 0)`.  The reference
  then forms `d r · (a r j + δ r j) · d j`, contracts it with the features `x` and with the transposed weights, and
  adds the bias.  The kernel instead scales the features once (`x j c · d j`), streams the adjacency matrix in
  2048 × 2048 tiles accumulating the contraction over the four column blocks of a row block, adds the diagonal
  term `x r c · d r` on the diagonal tile (the self loop), and on the last tile scales by `d r`, multiplies by the
  transposed weights and adds the bias.  Read on the extended reals the two results are the same function of the
  arguments as soon as the features are finite (the precondition): the adjacency entries are `0` or `1`, the
  degree factors are real powers of reals, and over the reals the two arrangements differ by distributivity.

  The frames of the two kernel programs are the generated frame certificates; the reference's frame is its run
  with the result dropped; nothing was rewritten between the kernel and its idealization.
-/
import proofs.«106884_j37254546325944_2_alg».proof.Defs
import proofs.«106884_j37254546325944_2_alg».proof.Proof.Gen.Kernel
import proofs.«106884_j37254546325944_2_alg».proof.Proof.Gen.Kernel.Skeleton
import proofs.«106884_j37254546325944_2_alg».proof.Proof.Gen.Kernel.Launch
import proofs.«106884_j37254546325944_2_alg».proof.Proof.Gen.Kernel.Points
import proofs.«106884_j37254546325944_2_alg».proof.Proof.Gen.Kernel.Frame
import proofs.«106884_j37254546325944_2_alg».proof.Proof.Gen.KernelIdeal
import proofs.«106884_j37254546325944_2_alg».proof.Proof.Gen.KernelIdeal.Skeleton
import proofs.«106884_j37254546325944_2_alg».proof.Proof.Gen.KernelIdeal.Launch
import proofs.«106884_j37254546325944_2_alg».proof.Proof.Gen.KernelIdeal.Points
import proofs.«106884_j37254546325944_2_alg».proof.Proof.Gen.KernelIdeal.Frame
import proofs.«106884_j37254546325944_2_alg».proof.Proof.Gen.ReferenceIdeal
import proofs.«106884_j37254546325944_2_alg».proof.Proof.Gen.Pre_finite_inputs
import proofs.«106884_j37254546325944_2_alg».proof.Proof.Gen.KernelIdeal.Value
import proofs.«106884_j37254546325944_2_alg».proof.Proof.RefRunP
import proofs.«106884_j37254546325944_2_alg».proof.Proof.RefReadP
import proofs.«106884_j37254546325944_2_alg».proof.Proof.Bridge
import proofs.«106884_j37254546325944_2_alg».proof.Proof.PreFinite
import Idealize.ShloMosaic.Adequacy
import Idealize.ShloMosaic.Init

noncomputable section

namespace Cert.Proof

open Idealize.ShloMosaic Idealize.SL.Sem Cert.Kernel

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.ValueP.run (F := Ideal) m ρ)

theorem preserves : Cert.preserves_Kernel_KernelIdeal := trivial

/-- Both runs end with the result at the kernel's closed form `Final.result`: the kernel's by its run, the
    reference's because its result term, at arguments that agree, is that array (`Bridge.result_eq_ref`, on the
    finite features the precondition gives). -/
theorem algebraic : Cert.algebraic_KernelIdeal_ReferenceIdeal := by
  intro m ρ m' ρ' hpre hagree
  refine ⟨fun c => Cert.KernelIdeal.Final.result m c, Cert.KernelIdeal.Final.run m ρ, ?_⟩
  refine (θ_run Cert.ReferenceIdeal.defs _ _).mono (fun _ h c => ⟨(h c).1.trans ?_, (h c).2⟩)
    (Cert.ReferenceIdeal.ValueP.run (F := Ideal) m' ρ')
  rw [Cert.ReferenceIdeal.ReadP.val_main_v44_eq, (hagree c).1, (hagree c).2.1, (hagree c).2.2.1, (hagree c).2.2.2]
  exact (Cert.KernelIdeal.Bridge.result_eq_ref m c
    (Cert.Proof.PreFinite.features_real _ _ _ _ (hpre c))).symm

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
